-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S8192x1 : Shape := ⟨2, ![8192, 1]⟩
abbrev S2048x128 : Shape := ⟨2, ![2048, 128]⟩
abbrev S1024x128 : Shape := ⟨2, ![1024, 128]⟩
abbrev S2048x1 : Shape := ⟨2, ![2048, 1]⟩
abbrev S128x1024 : Shape := ⟨2, ![128, 1024]⟩
abbrev S2048x1024 : Shape := ⟨2, ![2048, 1024]⟩
abbrev S1x1024 : Shape := ⟨2, ![1, 1024]⟩
abbrev S2048 : Shape := ⟨1, ![2048]⟩
abbrev S8192 : Shape := ⟨1, ![8192]⟩

abbrev nBuf : Space → Nat
  | .hbm => 41
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S8192x128, .bf16⟩
  | .hbm, ⟨24, _⟩ => ⟨S8192x1, .f32⟩
  | .hbm, ⟨25, _⟩ => ⟨S8192, .f32⟩
  | .hbm, ⟨26, _⟩ => ⟨S4096x128, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_12 : BitVec 32 := 0#32
  let v36 : BitVec 1 := Scalar.cmpi .ne v35 c0_i32_12
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S2048x1_d0_w32 : S2048x1.Iotas .tc 32 [0]
  iota_S1x1024_d1_w32 : S1x1024.Iotas .tc 32 [1]
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  shapeCasts_S8192x1_S8192 : S8192x1.ShapeCasts S8192
  bcast_S_S4096 : S_.BroadcastsInDim S4096 (![] : Fin 0 → Fin S4096.rank)
  reducesTo_S8192_S_d0 : S8192.ReducesTo [0] S_
  reducesTo_S4096_S_d0 : S4096.ReducesTo [0] S_
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .bf16 = 32 ∨ (Rect.block (s := S8192x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v17) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S8192 : Shape := ⟨1, ![8192]⟩
abbrev S8192x1 : Shape := ⟨2, ![8192, 1]⟩
abbrev S8192x2 : Shape := ⟨2, ![8192, 2]⟩

abbrev nBuf : Space → Nat
  | .hbm => 83
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S8192, .i32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1, .f32⟩
  | .hbm, ⟨57, _⟩ => ⟨S8192x8192, .f32⟩
  | .hbm, ⟨58, _⟩ => ⟨S8192x8192, .f32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192x1, .i32⟩
  | .hbm, ⟨76, _⟩ => ⟨S8192x2, .i32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.KData.lean ====
/-
  What the pipeline's buffers hold, point by point.

  The region runs the body at the 32 points of a 4 × 8 grid, row block `t / 8` (2048 rows) against column block
  `t % 8` (1024 rows) of the same 8192 × 128 array, which it reads through two windows. A column scratch of 2048
  entries is carried from point to point: at a point it becomes the body's row-sum payload of the two blocks added
  to what it held — to zeros at the first column block of a row block, which overwrites it first. At the last
  column block the output window's buffer is stored whole with the closing payload of the scratch, and the
  pipeline writes that block back; at every other point the output buffer is left as it was found.

  `accAt n` is the scratch after point `n`, by recursion on the point; `outAt n` the output buffer's contents after a
  point that stores it. The proof data names, per window and point, what the body leaves: each input buffer at its
  block, the output buffer at `outAt`; the invariant between points is the scratch at `accAt` of the point before
  (at anything before the first point). The two input windows hold the two halves of their common array's share.
-/
import proofs.«101070_j27547920236997_2_alg».proof.Proof.Gen.KernelIdeal.Launch
import proofs.«101070_j27547920236997_2_alg».proof.Proof.Gen.KernelIdeal.Skeleton
import proofs.«101070_j27547920236997_2_alg».proof.Proof.Gen.KernelIdeal.Points
import Idealize.ShloMosaic.Lib.Pipeline.FrameBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)
/-- after the host operations before the region; -/
abbrev V0 (c : Dev nD) : Valuation τ sig (Elt F) := StableHlo.after hostOps0 (V₀ m c)
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions over the grid -/

/-- "First column block": the condition under which the body zeroes the scratch. -/
abbrev condFirst (i : grid0.Coords) : Prop :=
  (Scalar.cmpi .ne (Scalar.extui (Scalar.cmpi .eq (BitVec.ofNat 32 (i 1).val) 0#32)) 0#32) = 1#1
/-- "Last column block": the condition under which it stores the output. -/
abbrev condLast (i : grid0.Coords) : Prop := k0_cond2 i = 1#1

theorem condFirst_iff : ∀ t : Fin cfg0.N, condFirst (grid0.coords t) ↔ t.val % 8 = 0 :=
  (by decide +kernel : ∀ t : Fin grid0.N, condFirst (grid0.coords t) ↔ t.val % 8 = 0)
theorem condLast_iff : ∀ t : Fin cfg0.N, condLast (grid0.coords t) ↔ t.val % 8 = 7 :=
  (by decide +kernel : ∀ t : Fin grid0.N, condLast (grid0.coords t) ↔ t.val % 8 = 7)

/-- Where the output window is idle, and where it is written back. -/
theorem idle_out_iff : ∀ t : Fin cfg0.N, cfg0.idle 2 (grid0.coords t) = true ↔ t.val % 8 ≠ 7 :=
  (by decide +kernel : ∀ t : Fin grid0.N, cfg0.idle 2 (grid0.coords t) = true ↔ t.val % 8 ≠ 7)
theorem live_in0 : ∀ t : Fin cfg0.N, cfg0.idle 0 (grid0.coords t) = false := by decide +kernel
theorem live_in1 : ∀ t : Fin cfg0.N, cfg0.idle 1 (grid0.coords t) = false := by decide +kernel

/-! ## The scratch and the output buffer, point by point -/

/-- The scratch operand, a whole scoped buffer of the kernel's own. -/
abbrev scM : Memref sig .tc .vmem S2048x1 .f32 := Memref.whole cc0_scratch0

/-- The scratch after point `n`: the row-sum payload of the point's two blocks added to what the point before left,
    or to zeros where the point is the first of its row block. -/
def accAt (c : Dev nD) : (n : ℕ) → n < cfg0.N → Vec F S2048x1 .f32
  | 0, hn => k0_pay3 (grid0.coords ⟨0, hn⟩) (iblk m c 0 ⟨0, hn⟩) (iblk m c 1 ⟨0, hn⟩) (k0_pay2 (F := F))
  | n + 1, hn =>
    k0_pay3 (grid0.coords ⟨n + 1, hn⟩) (iblk m c 0 ⟨n + 1, hn⟩) (iblk m c 1 ⟨n + 1, hn⟩)
      (if (n + 1) % 8 = 0 then k0_pay2 (F := F) else accAt c n (Nat.lt_of_succ_lt hn))

/-- The output buffer after a point that stores it: the closing payload of the scratch. -/
def outAt (c : Dev nD) (n : ℕ) (hn : n < cfg0.N) : Vec F S2048x1 .f32 := k0_pay1 (accAt m c n hn)

/-- The invariant before position `n`: the scratch at what the point before left, at anything before the first. -/
def PhiAt (c : Dev nD) : (n : ℕ) → n ≤ cfg0.N → sProp 𝕄
  | 0, _ => iprop(∃ d, owns (c : Thread nD τ) scM fullShare d)
  | n + 1, hn => owns (c : Thread nD τ) scM fullShare (accAt m c n hn)

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := PhiAt m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = outAt m c t.val t.isLt := by dsimp only [dats]

theorem Phi_castSucc (c : Dev nD) (t : Fin cfg0.N) :
    (dats m 0 c).Φ t.castSucc = PhiAt m c t.val (Nat.le_of_lt t.isLt) := by
  dsimp only [dats]; simp only [Fin.coe_castSucc]

theorem Phi_succ (c : Dev nD) (t : Fin cfg0.N) :
    (dats m 0 c).Φ t.succ = owns (c : Thread nD τ) scM fullShare (accAt m c t.val t.isLt) := rfl

theorem PhiAt_pos (c : Dev nD) (n : ℕ) (h : n ≤ cfg0.N) (hz : n ≠ 0) :
    PhiAt m c n h = owns (c : Thread nD τ) scM fullShare (accAt m c (n - 1) (by omega)) := by
  cases n with
  | zero => exact absurd rfl hz
  | succ n => rfl

/-- The scratch after a point that is not the first of its row block adds to what the point before left; -/
theorem accAt_step (c : Dev nD) (t : Fin cfg0.N) (h : t.val % 8 ≠ 0) :
    accAt m c t.val t.isLt = k0_pay3 (grid0.coords t) (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h
  | succ n => exact congrArg _ (if_neg h)

/-- after the first point of a row block it adds to zeros. -/
theorem accAt_first (c : Dev nD) (t : Fin cfg0.N) (h : t.val % 8 = 0) :
    accAt m c t.val t.isLt = k0_pay3 (grid0.coords t) (iblk m c 0 t) (iblk m c 1 t) (k0_pay2 (F := F)) := by
  obtain ⟨n, hn⟩ := t
  cases n with
  | zero => rfl
  | succ n => exact congrArg _ (if_pos h)

end Cert.KernelIdeal.Hand

end
-- ==== Proof.KOut.lean ====
/-
  The buffers when the region is left: the output array at what the write-backs made it, every other buffer as the
  region was entered. The operations after the region run from this valuation.
-/
import proofs.«101070_j27547920236997_2_alg».proof.Proof.KData

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F] [Named F]

variable (m : (ℓ : Loc nD τ sig) → Buf (Elt F) ℓ)

/-- The valuation the later operations start from. -/
def V1 (c : Dev nD) : Valuation τ sig (Elt F) :=
  Function.update (V0 m c) (Proc.devRef .tc main_v18) ((dats m 0 c).arrAt 2 cfg0.N)

theorem V1_out (c : Dev nD) : V1 m c (Proc.devRef .tc main_v18) = (dats m 0 c).arrAt 2 cfg0.N :=
  Function.update_self ..

theorem V1_of_ne (c : Dev nD) (b : DevRef τ sig) (h : b ≠ Proc.devRef .tc main_v18) : V1 m c b = V0 m c b :=
  Function.update_of_ne h ..

end Cert.KernelIdeal.Hand

end
-- ==== Proof.KLaunch.lean ====
/-
  The launch: @main as a line of host operations, the kernel region, and a line of host operations.

  The 22 operations before the region normalise and stack the rows; the region reads the stacked array through two
  windows, which therefore hold the two halves of that one buffer's share, and writes the 8192 × 1 array of row
  log-sum-exps; the 16 operations after it reduce to the loss. The arguments are written by no operation and by no
  window, so they end as launched; the result is the later operations' term of the region's output array and of the
  two normalised inputs.
-/
import proofs.«101070_j27547920236997_2_alg».proof.Proof.KOut

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- The unscoped buffers the later operations run within: all but the stacked array, which they never name. -/
def tailRefs : Finset (DevRef τ sig) := (Pipeline.ucRefs τ sig).erase (Proc.devRef .tc main_v17)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The operations before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- No later operation names the stacked array. -/
theorem hostOps1_sub_tail : ∀ op ∈ (hostOps1 : List (HloOp τ sig (Elt F))), op.bufs ⊆ tailRefs := by
  intro op hop b hb
  refine Finset.mem_erase.mpr ⟨?_, Pipeline.sub_ucRefs op ((List.forall_iff_forall_mem.mp hostOps1_sub) op hop) hb⟩
  simp only [hostOps1, List.mem_cons, List.mem_nil_iff, or_false] at hop
  rcases hop with rfl | rfl | rfl | rfl | rfl | rfl | rfl | rfl | rfl | rfl | rfl | rfl | rfl | rfl | rfl | rfl
  all_goals
    simp only [StableHlo.nullary_bufs, StableHlo.unary_bufs, StableHlo.binary_bufs, StableHlo.reshape_bufs,
      Finset.mem_insert, Finset.mem_singleton] at hb
    first
      | (rcases hb with rfl | rfl | rfl <;> exact StableHlo.devRef_ne_of_ne (by decide))
      | (rcases hb with rfl | rfl <;> exact StableHlo.devRef_ne_of_ne (by decide))
      | (subst hb; exact StableHlo.devRef_ne_of_ne (by decide))

/-- The operations after the region, over the buffers they may name. -/
def seg1 : Pipeline.HostSeg (Name := ℕ) (U := UR sig nD τ) (pcfgs (F := F)) defs₀ 𝒱₀ L lv :=
  Pipeline.HostSeg.ofOps _ _ _ _ _ tailRefs hostOps1 hostOps1_sub_tail hostOps1_fresh (V1 m) R

/-! ## The region's arrays, in and out -/

/-- The two buffers behind the three windows are unscoped buffers of the core. -/
theorem arrs_sub : ({Proc.devRef .tc main_v17, Proc.devRef .tc main_v18} : Finset (DevRef τ sig)) ⊆ Pipeline.ucRefs τ sig := by
  intro b hb
  simp only [Finset.mem_insert, Finset.mem_singleton] at hb
  unfold Pipeline.ucRefs
  rcases hb with rfl | rfl
  · exact Finset.mem_filter.mpr ⟨StableHlo.devRef_mem_tcRefs _, by decide⟩
  · exact Finset.mem_filter.mpr ⟨StableHlo.devRef_mem_tcRefs _, by decide⟩

/-- A set of two buffers held is the two points-tos. -/
theorem held_pair (c : Dev nD) (a b : DevRef τ sig) (h : a ≠ b) (W : Valuation τ sig (Elt F)) :
    (StableHlo.held (c : Thread nD τ) {a, b} W : sProp 𝕄)
      = iprop((((c : Thread nD τ).1, a) ↦{fullShare} W a) ∗ (((c : Thread nD τ).1, b) ↦{fullShare} W b)) := by
  unfold StableHlo.held
  rw [bigSep_insert (by rwa [Finset.mem_singleton]), bigSep_singleton]
  rfl

/-- One more buffer held beside a set is its points-to beside the set held. -/
theorem held_insert (c : Dev nD) (a : DevRef τ sig) (S : Finset (DevRef τ sig)) (h : a ∉ S) (W : Valuation τ sig (Elt F)) :
    (StableHlo.held (c : Thread nD τ) (insert a S) W : sProp 𝕄)
      = iprop((((c : Thread nD τ).1, a) ↦{fullShare} W a) ∗ StableHlo.held (c : Thread nD τ) S W) := by
  unfold StableHlo.held
  rw [bigSep_insert h]
  rfl

/-- Each window's array, as the points-to of the buffer behind it at the window's share. -/
theorem arr_pt0 (c : Dev nD) (n : ℕ) :
    ((cfg0.win 0).arr.view.loc (c : Thread nD τ) ↦[(cfg0.win 0).arr.view.set]{(dats m 0 c).share 0} (dats m 0 c).arrAt 0 n : sProp 𝕄)
      = (((c : Thread nD τ).1, Proc.devRef .tc main_v17) ↦{fullShare.left} (dats m 0 c).arrAt 0 n) := by
  rw [(arr_whole0 0).set_eq_univ]; rfl
theorem arr_pt1 (c : Dev nD) (n : ℕ) :
    ((cfg0.win 1).arr.view.loc (c : Thread nD τ) ↦[(cfg0.win 1).arr.view.set]{(dats m 0 c).share 1} (dats m 0 c).arrAt 1 n : sProp 𝕄)
      = (((c : Thread nD τ).1, Proc.devRef .tc main_v17) ↦{fullShare.right} (dats m 0 c).arrAt 1 n) := by
  rw [(arr_whole0 1).set_eq_univ]; rfl
theorem arr_pt2 (c : Dev nD) (n : ℕ) :
    ((cfg0.win 2).arr.view.loc (c : Thread nD τ) ↦[(cfg0.win 2).arr.view.set]{(dats m 0 c).share 2} (dats m 0 c).arrAt 2 n : sProp 𝕄)
      = (((c : Thread nD τ).1, Proc.devRef .tc main_v18) ↦{fullShare} (dats m 0 c).arrAt 2 n) := by
  rw [(arr_whole0 2).set_eq_univ]; rfl

/-- ENTRY: the stacked array's buffer, split into its two half shares, and the output's buffer are the windows' arrays
    at their entry contents. -/
theorem arrays_entry (c : Dev nD) :
    (StableHlo.held (c : Thread nD τ) {Proc.devRef .tc main_v17, Proc.devRef .tc main_v18} (V0 m c) : sProp 𝕄)
      ⊢ (dats m 0 c).arrays ((dats m 0 c).arrAt · 0) := by
  rw [held_pair c _ _ (StableHlo.devRef_ne_of_ne (by decide))]
  unfold Dat.arrays
  rw [bigSep_W0, arr_pt0, arr_pt1, arr_pt2]
  refine (sep_mono (pointsTo_share (PosShare.mem_left_op_right fullShare)).1 .rfl).trans ?_
  iintro ⟨⟨Hl, Hr⟩, H18⟩
  isplitl [Hl]; · iexact Hl
  isplitl [Hr]; · iexact Hr
  iexact H18

/-- The later operations' buffers are the output's and everything the windows do not touch. -/
theorem tailRefs_eq : (tailRefs : Finset (DevRef τ sig))
    = insert (Proc.devRef .tc main_v18) ((Pipeline.ucRefs τ sig) \ {Proc.devRef .tc main_v17, Proc.devRef .tc main_v18}) := by
  ext b
  simp only [tailRefs, Finset.mem_erase, Finset.mem_insert, Finset.mem_sdiff, Finset.mem_singleton, not_or]
  constructor
  · rintro ⟨h17, hb⟩
    by_cases h18 : b = Proc.devRef .tc main_v18
    · exact Or.inl h18
    · exact Or.inr ⟨hb, h17, h18⟩
  · rintro (rfl | ⟨hb, h17, -⟩)
    · exact ⟨StableHlo.devRef_ne_of_ne (by decide), arrs_sub (by simp)⟩
    · exact ⟨h17, hb⟩

variable (hbody : ∀ c, BodyObligation (dats (F := F) m 0 c) (defs₀ (F := F)) 𝒱₀ () Set.univ)

set_option backward.isDefEq.respectTransparency.types false in
/-- The region, entered from what the first line of operations left. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) tailRefs (V1 m c) ∗ R c)
  X c := iprop(emp)
  Y c := iprop(emp)
  Z c := StableHlo.held (c : Thread nD τ) ((Pipeline.ucRefs τ sig) \ {Proc.devRef .tc main_v17, Proc.devRef .tc main_v18}) (V0 m c)
  hentry c := by
    rw [StableHlo.held_sub_split (c : Thread nD τ) (arrs_sub) (V0 m c), Pipeline.ownSems0_none]
    iintro ⟨⟨⟨Hab, Hrest⟩, HO⟩, -, -⟩
    imodintro
    isplitl [Hab]; · iapply (arrays_entry m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    have h : (Pipeline.scopedRest (Ix := Unit) (Name := ℕ) (U := UR sig nD τ) (Lvl := ℕ) (Val := Elt F) spec0 c : sProp 𝕄) ⊢ (dats m 0 c).Φ 0 := by
      rw [scopedRest0_eq, show (dats m 0 c).Φ 0 = iprop(∃ d, owns (c : Thread nD τ) scM fullShare d) from rfl]
      simp only [scM, owns_whole]; exact .rfl
    iintro ⟨-, -, Hr⟩; iapply h; iexact Hr
  hout c := by
    rw [Pipeline.ownSems0_none]
    have h : (dats m 0 c).Φ (Fin.last cfg0.N) ⊢ (Pipeline.scopedRest (Ix := Unit) (Name := ℕ) (U := UR sig nD τ) (Lvl := ℕ) (Val := Elt F) spec0 c : sProp 𝕄) := by
      rw [scopedRest0_eq, show (dats m 0 c).Φ (Fin.last cfg0.N) = PhiAt m c cfg0.N (le_refl _) from rfl,
        PhiAt_pos m c _ _ (by rw [show cfg0.N = 32 from N_0]; decide)]
      simp only [scM, owns_whole]
      iintro H; iexists _; iexact H
    iintro H
    isplitr; · iempintro
    isplitr; · iempintro
    iapply h; iexact H
  hexit c := by
    unfold Dat.arrays
    rw [bigSep_W0, arr_pt0, arr_pt1, arr_pt2, tailRefs_eq, held_insert c _ _ (by simp),
      show V1 m c (Proc.devRef .tc main_v18) = (dats m 0 c).arrAt 2 cfg0.N from Function.update_self ..,
      StableHlo.held_congr (c : Thread nD τ) (V := V1 m c) (V' := V0 m c) (fun b hb => Function.update_of_ne (by
        intro e; subst e; simp at hb) ..)]
    iintro ⟨⟨-, -, H18⟩, HO, -, HZ⟩
    imodintro
    isplitr [HO]
    · isplitl [H18]
      · iexact H18
      · iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) :=
  [.host (seg0 m), .region (reg0 m hbody), .host (seg1 m)]

/-- The buffers at the end: the later operations have run. -/
abbrev Vend (c : Dev nD) : Valuation τ sig (Elt F) := StableHlo.after hostOps1 (V1 m c)

/-- The last thread state. -/
abbrev Tₙ (c : Dev nD) : sProp 𝕄 := StableHlo.held (c : Thread nD τ) tailRefs (Vend m c)

/-- The launch element: the pipeline library's, at the staging cells and the pipeline's transfers. -/
def u₀ : UR sig nD τ := initOf (Pipeline.cells cfgs cellOf_inj) (Pipeline.launchToks cfgs cellOf_inj)

/-- The three buffers the claims read are among those the later operations run within. -/
theorem mem_tail_of_ne (b : Ref sig .tc) (hs : (Proc.devRef .tc b : DevRef τ sig).isScoped = false) (h : b ≠ main_v17) :
    (Proc.devRef .tc b : DevRef τ sig) ∈ (tailRefs : Finset (DevRef τ sig)) := by
  unfold tailRefs Pipeline.ucRefs
  exact Finset.mem_erase.mpr ⟨StableHlo.devRef_ne_of_ne h, Finset.mem_filter.mpr ⟨StableHlo.devRef_mem_tcRefs _, by rw [hs]; exact Bool.false_ne_true⟩⟩

/-- What a final memory holds: the result at the later operations' term, the two arguments at what that valuation
    gives them. -/
def QC : PUnit × MemSt nD τ sig (Elt F) → Prop := fun r => ∀ c : Dev nD,
  r.2.mem ((c : Thread nD τ).1, Proc.devRef .tc main_v28) = Vend m c (Proc.devRef .tc main_v28)
  ∧ r.2.mem ((c : Thread nD τ).1, Proc.devRef .tc main_arg0) = Vend m c (Proc.devRef .tc main_arg0)
  ∧ r.2.mem ((c : Thread nD τ).1, Proc.devRef .tc main_arg1) = Vend m c (Proc.devRef .tc main_arg1)

include hbody in
set_option backward.isDefEq.respectTransparency.types false in
/-- At the compiled mesh, from any memory with zero counters: every weakly fair execution of @main on the TensorCores
    terminates, nothing faulting, with the result and the two arguments at the final valuation's contents. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m hbody)
    (fun c Q => by rw [main_segs adm (dats m) () 𝒱₀ L lv (seg0 m) (seg1 m) (reg0 m hbody) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).1, Proc.devRef .tc main_v28) = Vend m c (Proc.devRef .tc main_v28)
      ∧ s.mem ((c : Thread nD τ).1, Proc.devRef .tc main_arg0) = Vend m c (Proc.devRef .tc main_arg0)
      ∧ s.mem ((c : Thread nD τ).1, Proc.devRef .tc main_arg1) = Vend m c (Proc.devRef .tc main_arg1))
    (hfin := fun c s' => by
      have hr := pointsTo_read_all (Ix := Unit) (Name := ℕ) (U := UR sig nD τ) (Lvl := ℕ) (tailRefs : Finset (DevRef τ sig))
        (fun b => ((c : Thread nD τ).1, b)) (fun b => Vend m c b) s'
      show iprop(StableHlo.held (c : Thread nD τ) tailRefs (Vend m c) ∗ SI s') ⊢ _
      unfold StableHlo.held
      iintro ⟨Hh, HSI⟩
      ihave Hr := hr $$ [Hh HSI]
      · isplitl [Hh] <;> iassumption
      icases Hr with ⟨%ha, HSI⟩
      imodintro
      isplitr
      · ipureintro
        exact ⟨ha _ (mem_tail_of_ne main_v28 rfl (by decide)), ha _ (mem_tail_of_ne main_arg0 rfl (by decide)),
          ha _ (mem_tail_of_ne main_arg1 rfl (by decide))⟩
      iexact HSI)
    (hQ := fun _ h => h)

/-- No operation writes an argument, and no window is on one: the final valuation has them as launched. -/
theorem Vend_arg (c : Dev nD) (b : Ref sig .tc)
    (h0 : ∀ op ∈ (hostOps0 : List (HloOp τ sig (Elt F))), Proc.devRef .tc b ∉ op.writes)
    (h1 : ∀ op ∈ (hostOps1 : List (HloOp τ sig (Elt F))), Proc.devRef .tc b ∉ op.writes) (hb : b ≠ main_v18) :
    Vend m c (Proc.devRef .tc b) = m ((c : Thread nD τ).loc b) := by
  unfold Vend
  rw [StableHlo.after_of_forall_not_mem hostOps1 (V1 m c) h1, V1_of_ne m c _ (StableHlo.devRef_ne_of_ne hb)]
  exact StableHlo.after_of_forall_not_mem hostOps0 (V₀ m c) h0

/-- No operation before the region writes an argument; -/
theorem args_kept0 (b : Ref sig .tc) (hb : b = main_arg0 ∨ b = main_arg1) :
    ∀ op ∈ (hostOps0 : List (HloOp τ sig (Elt F))), Proc.devRef .tc b ∉ op.writes := by
  intro op hop
  simp only [hostOps0, List.mem_cons, List.mem_nil_iff, or_false] at hop
  rcases hb with rfl | rfl <;>
    (rcases hop with rfl | rfl | rfl | rfl | rfl | rfl | rfl | rfl | rfl | rfl | rfl | rfl | rfl | rfl | rfl | rfl | rfl | rfl | rfl | rfl | rfl | rfl <;>
      simp only [StableHlo.unary_writes, StableHlo.binary_writes, StableHlo.nullary_writes, Finset.mem_singleton] <;>
      exact StableHlo.devRef_ne_of_ne (by decide))

/-- nor does one after it. -/
theorem args_kept1 (b : Ref sig .tc) (hb : b = main_arg0 ∨ b = main_arg1) :
    ∀ op ∈ (hostOps1 : List (HloOp τ sig (Elt F))), Proc.devRef .tc b ∉ op.writes := by
  intro op hop
  simp only [hostOps1, List.mem_cons, List.mem_nil_iff, or_false] at hop
  rcases hb with rfl | rfl <;>
    (rcases hop with rfl | rfl | rfl | rfl | rfl | rfl | rfl | rfl | rfl | rfl | rfl | rfl | rfl | rfl | rfl | rfl <;>
      simp only [StableHlo.unary_writes, StableHlo.binary_writes, StableHlo.nullary_writes, StableHlo.reshape_writes, Finset.mem_singleton] <;>
      exact StableHlo.devRef_ne_of_ne (by decide))

/-- So the final valuation has both arguments as launched. -/
theorem Vend_arg0 (c : Dev nD) : Vend m c (Proc.devRef .tc main_arg0) = m ((c : Thread nD τ).loc main_arg0) :=
  Vend_arg m c main_arg0 (args_kept0 main_arg0 (Or.inl rfl)) (args_kept1 main_arg0 (Or.inl rfl)) (by decide)
theorem Vend_arg1 (c : Dev nD) : Vend m c (Proc.devRef .tc main_arg1) = m ((c : Thread nD τ).loc main_arg1) :=
  Vend_arg m c main_arg1 (args_kept0 main_arg1 (Or.inr rfl)) (args_kept1 main_arg1 (Or.inr rfl)) (by decide)

end Cert.KernelIdeal.Hand

end
-- ==== Proof.KBody.lean ====
/-
  The kernel body's obligation at every grid point.

  The body meets the 4 × 8 grid in three ways. At the first column block of a row block it overwrites the scratch
  with zeros, then adds the point's row-sum payload to it; at a column block that is neither first nor last it adds
  the payload to what the scratch held; at the last column block it adds the payload and then stores the closing
  payload of the scratch into the output window's buffer. Both ends at once never happens (a row block has 8 > 1
  column blocks). Every load and store is through the whole buffer, so a load reads the contents and a store, made
  last, is what the buffer then reads.

  Each case is run once over arbitrary whole memrefs and contents (`runFirst`, `runMiddle`, `runLast`), the stores'
  results named by the payloads. The obligation at a point then follows by the point's residue mod 8: the inputs'
  buffers hold their blocks at every point; the output buffer is handed back as found where the window is idle, and
  holds the closing payload where it is stored; the scratch goes from what the point before left to this point's
  contents.
-/
import proofs.«101070_j27547920236997_2_alg».proof.Proof.KData
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## Whole-buffer loads and stores -/

/-- The zero offsets, however spelt. -/
theorem kb_hz : (![0, 0] : Fin 2 → Nat) = fun _ => 0 := funext fun a => by fin_cases a <;> rfl

/-- A load through the whole-shape rectangle at zero offsets reads the contents. -/
theorem kb_readAt_whole {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store through it, made last, is what the buffer then reads, whatever was stored before. -/
theorem kb_read_store_whole {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-! ## The three runs of the body -/

set_option maxHeartbeats 1000000 in
theorem runMiddle (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (h1 : ¬condFirst i) (h2 : ¬condLast i)
    (x0 : Vec F S2048x128 .bf16) (x1 : Vec F S1024x128 .bf16) (xo : Vec F S2048x1 .f32) (xs : Vec F S2048x1 .f32)
    (K : PUnit → sProp 𝕄) :
    iprop(owns (c : Thread nD τ) arg2 fullShare x0 ∗ owns (c : Thread nD τ) arg3 fullShare x1
          ∗ owns (c : Thread nD τ) arg4 fullShare xo ∗ owns (c : Thread nD τ) scM fullShare xs
          ∗ (iprop(owns (c : Thread nD τ) arg2 fullShare x0 ∗ owns (c : Thread nD τ) arg3 fullShare x1
              ∗ owns (c : Thread nD τ) arg4 fullShare xo ∗ owns (c : Thread nD τ) scM fullShare (k0_pay3 i x0 x1 xs)) -∗ K ⟨⟩))
      ⊢ wp frame (wpE (defs₀ (F := F)) Variants.none c none) Set.univ
          (cc0__lse_kernel i arg2 harg2 arg3 harg3 arg4 harg4 scM (Memref.isWhole_whole _)) K := by
  simp only [cc0__lse_kernel_eq_skeleton]; unfold cc0__lse_kernel_skel
  simp only [k0_part1_eq_skeleton]; unfold k0_part1_skel
  unfold owns
  iintro ⟨⟨%f0, %hf0, H0⟩, ⟨%f1, %hf1, H1⟩, Ho, ⟨%fs, %hfs, HS⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexact Ho
  iexists _; isplitr; swap; · iexact HS
  ipureintro
  rw [kb_read_store_whole _ _ kb_hz, kb_readAt_whole _ _ kb_hz, kb_readAt_whole _ _ kb_hz, kb_readAt_whole _ _ kb_hz,
    harg2.read_unread, harg3.read_unread, hfs]

set_option maxHeartbeats 1000000 in
theorem runFirst (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (h1 : condFirst i) (h2 : ¬condLast i)
    (x0 : Vec F S2048x128 .bf16) (x1 : Vec F S1024x128 .bf16) (xo : Vec F S2048x1 .f32)
    (K : PUnit → sProp 𝕄) :
    iprop(owns (c : Thread nD τ) arg2 fullShare x0 ∗ owns (c : Thread nD τ) arg3 fullShare x1
          ∗ owns (c : Thread nD τ) arg4 fullShare xo ∗ (∃ d, owns (c : Thread nD τ) scM fullShare d)
          ∗ (iprop(owns (c : Thread nD τ) arg2 fullShare x0 ∗ owns (c : Thread nD τ) arg3 fullShare x1
              ∗ owns (c : Thread nD τ) arg4 fullShare xo ∗ owns (c : Thread nD τ) scM fullShare (k0_pay3 i x0 x1 (k0_pay2 (F := F)))) -∗ K ⟨⟩))
      ⊢ wp frame (wpE (defs₀ (F := F)) Variants.none c none) Set.univ
          (cc0__lse_kernel i arg2 harg2 arg3 harg3 arg4 harg4 scM (Memref.isWhole_whole _)) K := by
  simp only [cc0__lse_kernel_eq_skeleton]; unfold cc0__lse_kernel_skel
  simp only [k0_part1_eq_skeleton]; unfold k0_part1_skel
  unfold owns
  iintro ⟨⟨%f0, %hf0, H0⟩, ⟨%f1, %hf1, H1⟩, Ho, ⟨%xs, %fs, %hfs, HS⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexact Ho
  iexists _; isplitr; swap; · iexact HS
  ipureintro
  rw [kb_read_store_whole _ _ kb_hz, kb_readAt_whole _ _ kb_hz, kb_readAt_whole _ _ kb_hz,
    harg2.read_unread, harg3.read_unread]
  sl_unfold_run_names
  rw [View.readCov_unit_zero _ kb_hz]

set_option maxHeartbeats 1000000 in
theorem runLast (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (h1 : ¬condFirst i) (h2 : condLast i)
    (x0 : Vec F S2048x128 .bf16) (x1 : Vec F S1024x128 .bf16) (xs : Vec F S2048x1 .f32)
    (K : PUnit → sProp 𝕄) :
    iprop(owns (c : Thread nD τ) arg2 fullShare x0 ∗ owns (c : Thread nD τ) arg3 fullShare x1
          ∗ (∃ d, owns (c : Thread nD τ) arg4 fullShare d) ∗ owns (c : Thread nD τ) scM fullShare xs
          ∗ (iprop(owns (c : Thread nD τ) arg2 fullShare x0 ∗ owns (c : Thread nD τ) arg3 fullShare x1
              ∗ owns (c : Thread nD τ) arg4 fullShare (k0_pay1 (k0_pay3 i x0 x1 xs))
              ∗ owns (c : Thread nD τ) scM fullShare (k0_pay3 i x0 x1 xs)) -∗ K ⟨⟩))
      ⊢ wp frame (wpE (defs₀ (F := F)) Variants.none c none) Set.univ
          (cc0__lse_kernel i arg2 harg2 arg3 harg3 arg4 harg4 scM (Memref.isWhole_whole _)) K := by
  simp only [cc0__lse_kernel_eq_skeleton]; unfold cc0__lse_kernel_skel
  simp only [k0_part1_eq_skeleton]; unfold k0_part1_skel
  unfold owns
  iintro ⟨⟨%f0, %hf0, H0⟩, ⟨%f1, %hf1, H1⟩, ⟨%xo, %fo, %hfo, Ho⟩, ⟨%fs, %hfs, HS⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; swap; · iexact Ho
    ipureintro
    rw [kb_read_store_whole _ _ kb_hz]
    sl_unfold_run_names
    refine congrArg (k0_pay1 (F := F)) ((View.readCov_unit_zero scM.view kb_hz inb_S2048x1_S2048x1_0_0 _).trans ?_)
    rw [kb_readAt_whole _ _ kb_hz, kb_readAt_whole _ _ kb_hz, kb_readAt_whole _ _ kb_hz,
      harg2.read_unread, harg3.read_unread, hfs]
  iexists _; isplitr; swap; · iexact HS
  ipureintro
  sl_unfold_run_names
  rw [kb_read_store_whole _ _ kb_hz, kb_readAt_whole _ _ kb_hz, kb_readAt_whole _ _ kb_hz, kb_readAt_whole _ _ kb_hz,
    harg2.read_unread, harg3.read_unread, hfs]

/-! ## The body obligation, at a generic point -/

/-- Each input window's current buffer holds its block at every point, fetched there or not: the body leaves the
    block in place and the window is never idle. -/
theorem kb_before0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)

theorem kb_before1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)

/-- The invariant before any position owns the scratch at some contents. -/
theorem kb_PhiAt_any (c : Dev nD) (n : ℕ) (h : n ≤ cfg0.N) :
    PhiAt m c n h ⊢ iprop(∃ d, owns (c : Thread nD τ) scM fullShare d) := by
  cases n with
  | zero => exact Idealize.SL.BI.Entails.refl _
  | succ n => unfold PhiAt; iintro H; iexists _; iexact H

/-- What the body is called with at point `t`, the windows one by one, -/
def kb_bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def kb_bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem kb_leaves0 (c : Dev nD) (t : Fin cfg0.N) :
    (dats m 0 c).leavesExact 0 t = owns (c : Thread nD τ) (st0_0 t) fullShare (iblk m c 0 t) := by
  unfold Dat.leavesExact; rw [live_in0 t, after_in0]

theorem kb_leaves1 (c : Dev nD) (t : Fin cfg0.N) :
    (dats m 0 c).leavesExact 1 t = owns (c : Thread nD τ) (st0_1 t) fullShare (iblk m c 1 t) := by
  unfold Dat.leavesExact; rw [live_in1 t, after_in1]

/-- Where the output window is idle its buffer is handed back as found; -/
theorem kb_leaves2_idle (c : Dev nD) (t : Fin cfg0.N) (h7 : t.val % 8 ≠ 7) :
    (dats m 0 c).leavesExact 2 t
      = iprop(∃ d, owns (c : Thread nD τ) (st0_2 t) fullShare ((dats m 0 c).before 2 t d)) :=
  Dat.leavesExact_idle (dats m 0 c) 2 t ((idle_out_iff t).mpr h7)
    (Bool.eq_false_iff.mpr fun h => h7 ((flush0_2 t).mp h))

/-- where it is stored, it holds the closing payload of the scratch. -/
theorem kb_leaves2_live (c : Dev nD) (t : Fin cfg0.N) (h7 : t.val % 8 = 7) :
    (dats m 0 c).leavesExact 2 t
      = owns (c : Thread nD τ) (st0_2 t) fullShare (k0_pay1 (accAt m c t.val t.isLt)) := by
  unfold Dat.leavesExact
  rw [show cfg0.idle 2 (grid0.coords t) = false from Bool.eq_false_iff.mpr fun h => (idle_out_iff t).mp h h7, after_out]
  rfl

set_option maxHeartbeats 4000000 in
/-- The body at any point: the inputs' buffers hold their blocks; the point's residue says which case it is in; the
    invariant hands the body the scratch at what the point before left (at anything before the first point, where
    the body overwrites it first) and takes it back at this point's contents; the core owes nothing throughout. -/
theorem kb_sound_body (c : Dev nD) (t : Fin cfg0.N) :
    kb_bodyPre m c t ⊢ wp frame (wpE (defs₀ (F := F)) Variants.none c none) Set.univ (bodyAt0 t) (fun _ => kb_bodyPost m c t) := by
  unfold kb_bodyPre kb_bodyPost bodyAt0
  simp only [kb_before0, kb_before1]
  rw [show (dats m 0 c).owesAt () t.succ = (dats m 0 c).owesAt () t.castSucc from rfl]
  rw [Phi_succ, Phi_castSucc, kb_leaves0, kb_leaves1]
  have hN : t.val < 32 := lt_of_lt_of_eq t.isLt (show cfg0.N = 32 from N_0)
  by_cases h0 : t.val % 8 = 0
  · by_cases h7 : t.val % 8 = 7
    · exfalso; omega
    · rw [kb_leaves2_idle m c t h7, accAt_first m c t h0]
      iintro ⟨HS, Ho, ⟨%d0, H0⟩, ⟨%d1, H1⟩, ⟨%d2, H2⟩⟩
      iapply (runFirst c (grid0.coords t) _ _ _ _ _ _ ((condFirst_iff t).mpr h0) (fun h => h7 ((condLast_iff t).mp h))
        (iblk m c 0 t) (iblk m c 1 t) ((dats m 0 c).before 2 t d2) _)
      isplitl [H0]; · iexact H0
      isplitl [H1]; · iexact H1
      isplitl [H2]; · iexact H2
      isplitl [HS]; · iapply (kb_PhiAt_any m c _ _); iexact HS
      iintro ⟨H0, H1, H2, HS⟩
      isplitl [HS]; · iexact HS
      isplitl [Ho]; · iexact Ho
      isplitl [H0]; · iexact H0
      isplitl [H1]; · iexact H1
      iexists _; iexact H2
  · have hz : t.val ≠ 0 := fun e => h0 (by rw [e])
    rw [PhiAt_pos m c _ _ hz, accAt_step m c t h0]
    by_cases h7 : t.val % 8 = 7
    · rw [kb_leaves2_live m c t h7, accAt_step m c t h0]
      iintro ⟨HS, Ho, ⟨%d0, H0⟩, ⟨%d1, H1⟩, ⟨%d2, H2⟩⟩
      iapply (runLast c (grid0.coords t) _ _ _ _ _ _ (fun h => h0 ((condFirst_iff t).mp h)) ((condLast_iff t).mpr h7)
        (iblk m c 0 t) (iblk m c 1 t) (accAt m c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · rw [kb_leaves2_idle m c t h7]
      iintro ⟨HS, Ho, ⟨%d0, H0⟩, ⟨%d1, H1⟩, ⟨%d2, H2⟩⟩
      iapply (runMiddle c (grid0.coords t) _ _ _ _ _ _ (fun h => h0 ((condFirst_iff t).mp h)) (fun h => h7 ((condLast_iff t).mp h))
        (iblk m c 0 t) (iblk m c 1 t) ((dats m 0 c).before 2 t d2)
        (accAt m c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact kb_sound_body m c t

end Cert.KernelIdeal.Hand

end
-- ==== Proof.WData.lean ====
/-
  What the pipeline's buffers hold, point by point.

  The region runs the body at the 32 points of a 4 × 8 grid, row block `t / 8` (2048 rows) against column block
  `t % 8` (1024 rows) of the same 8192 × 128 array, which it reads through two windows. A column scratch of 2048
  entries is carried from point to point: at a point it becomes the body's row-sum payload of the two blocks added
  to what it held — to zeros at the first column block of a row block, which overwrites it first. At the last
  column block the output window's buffer is stored whole with the closing payload of the scratch, and the
  pipeline writes that block back; at every other point the output buffer is left as it was found.

  `accAt n` is the scratch after point `n`, by recursion on the point; `outAt n` the output buffer's contents after a
  point that stores it. The proof data names, per window and point, what the body leaves: each input buffer at its
  block, the output buffer at `outAt`; the invariant between points is the scratch at `accAt` of the point before
  (at anything before the first point). The two input windows hold the two halves of their common array's share.
-/
import proofs.«101070_j27547920236997_2_alg».proof.Proof.Gen.Kernel.Launch
import proofs.«101070_j27547920236997_2_alg».proof.Proof.Gen.Kernel.Skeleton
import proofs.«101070_j27547920236997_2_alg».proof.Proof.Gen.Kernel.Points
import Idealize.ShloMosaic.Lib.Pipeline.FrameBody
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)
/-- after the host operations before the region; -/
abbrev V0 (c : Dev nD) : Valuation τ sig (Elt F) := StableHlo.after hostOps0 (V₀ m c)
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions over the grid -/

/-- "First column block": the condition under which the body zeroes the scratch. -/
abbrev condFirst (i : grid0.Coords) : Prop :=
  (Scalar.cmpi .ne (Scalar.extui (Scalar.cmpi .eq (BitVec.ofNat 32 (i 1).val) 0#32)) 0#32) = 1#1
/-- "Last column block": the condition under which it stores the output. -/
abbrev condLast (i : grid0.Coords) : Prop := k0_cond2 i = 1#1

theorem condFirst_iff : ∀ t : Fin cfg0.N, condFirst (grid0.coords t) ↔ t.val % 8 = 0 :=
  (by decide +kernel : ∀ t : Fin grid0.N, condFirst (grid0.coords t) ↔ t.val % 8 = 0)
theorem condLast_iff : ∀ t : Fin cfg0.N, condLast (grid0.coords t) ↔ t.val % 8 = 7 :=
  (by decide +kernel : ∀ t : Fin grid0.N, condLast (grid0.coords t) ↔ t.val % 8 = 7)

/-- Where the output window is idle, and where it is written back. -/
theorem idle_out_iff : ∀ t : Fin cfg0.N, cfg0.idle 2 (grid0.coords t) = true ↔ t.val % 8 ≠ 7 :=
  (by decide +kernel : ∀ t : Fin grid0.N, cfg0.idle 2 (grid0.coords t) = true ↔ t.val % 8 ≠ 7)
theorem live_in0 : ∀ t : Fin cfg0.N, cfg0.idle 0 (grid0.coords t) = false := by decide +kernel
theorem live_in1 : ∀ t : Fin cfg0.N, cfg0.idle 1 (grid0.coords t) = false := by decide +kernel

/-! ## The scratch and the output buffer, point by point -/

/-- The scratch operand, a whole scoped buffer of the kernel's own. -/
abbrev scM : Memref sig .tc .vmem S2048x1 .f32 := Memref.whole cc0_scratch0

/-- The scratch after point `n`: the row-sum payload of the point's two blocks added to what the point before left,
    or to zeros where the point is the first of its row block. -/
def accAt (c : Dev nD) : (n : ℕ) → n < cfg0.N → Vec F S2048x1 .f32
  | 0, hn => k0_pay3 (grid0.coords ⟨0, hn⟩) (iblk m c 0 ⟨0, hn⟩) (iblk m c 1 ⟨0, hn⟩) (k0_pay2 (F := F))
  | n + 1, hn =>
    k0_pay3 (grid0.coords ⟨n + 1, hn⟩) (iblk m c 0 ⟨n + 1, hn⟩) (iblk m c 1 ⟨n + 1, hn⟩)
      (if (n + 1) % 8 = 0 then k0_pay2 (F := F) else accAt c n (Nat.lt_of_succ_lt hn))

/-- The output buffer after a point that stores it: the closing payload of the scratch. -/
def outAt (c : Dev nD) (n : ℕ) (hn : n < cfg0.N) : Vec F S2048x1 .f32 := k0_pay1 (accAt m c n hn)

/-- The invariant before position `n`: the scratch at what the point before left, at anything before the first. -/
def PhiAt (c : Dev nD) : (n : ℕ) → n ≤ cfg0.N → sProp 𝕄
  | 0, _ => iprop(∃ d, owns (c : Thread nD τ) scM fullShare d)
  | n + 1, hn => owns (c : Thread nD τ) scM fullShare (accAt m c n hn)

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := PhiAt m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = outAt m c t.val t.isLt := by dsimp only [dats]

theorem Phi_castSucc (c : Dev nD) (t : Fin cfg0.N) :
    (dats m 0 c).Φ t.castSucc = PhiAt m c t.val (Nat.le_of_lt t.isLt) := by
  dsimp only [dats]; simp only [Fin.coe_castSucc]

theorem Phi_succ (c : Dev nD) (t : Fin cfg0.N) :
    (dats m 0 c).Φ t.succ = owns (c : Thread nD τ) scM fullShare (accAt m c t.val t.isLt) := rfl

theorem PhiAt_pos (c : Dev nD) (n : ℕ) (h : n ≤ cfg0.N) (hz : n ≠ 0) :
    PhiAt m c n h = owns (c : Thread nD τ) scM fullShare (accAt m c (n - 1) (by omega)) := by
  cases n with
  | zero => exact absurd rfl hz
  | succ n => rfl

/-- The scratch after a point that is not the first of its row block adds to what the point before left; -/
theorem accAt_step (c : Dev nD) (t : Fin cfg0.N) (h : t.val % 8 ≠ 0) :
    accAt m c t.val t.isLt = k0_pay3 (grid0.coords t) (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h
  | succ n => exact congrArg _ (if_neg h)

/-- after the first point of a row block it adds to zeros. -/
theorem accAt_first (c : Dev nD) (t : Fin cfg0.N) (h : t.val % 8 = 0) :
    accAt m c t.val t.isLt = k0_pay3 (grid0.coords t) (iblk m c 0 t) (iblk m c 1 t) (k0_pay2 (F := F)) := by
  obtain ⟨n, hn⟩ := t
  cases n with
  | zero => rfl
  | succ n => exact congrArg _ (if_pos h)

end Cert.Kernel.Hand

end
-- ==== Proof.WOut.lean ====
/-
  The buffers when the region is left: the output array at what the write-backs made it, every other buffer as the
  region was entered. The operations after the region run from this valuation.
-/
import proofs.«101070_j27547920236997_2_alg».proof.Proof.WData

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The valuation the later operations start from. -/
def V1 (c : Dev nD) : Valuation τ sig (Elt F) :=
  Function.update (V0 m c) (Proc.devRef .tc main_v18) ((dats m 0 c).arrAt 2 cfg0.N)

theorem V1_out (c : Dev nD) : V1 m c (Proc.devRef .tc main_v18) = (dats m 0 c).arrAt 2 cfg0.N :=
  Function.update_self ..

theorem V1_of_ne (c : Dev nD) (b : DevRef τ sig) (h : b ≠ Proc.devRef .tc main_v18) : V1 m c b = V0 m c b :=
  Function.update_of_ne h ..

end Cert.Kernel.Hand

end
-- ==== Proof.WLaunch.lean ====
/-
  The launch: @main as a line of host operations, the kernel region, and a line of host operations.

  The 22 operations before the region normalise and stack the rows; the region reads the stacked array through two
  windows, which therefore hold the two halves of that one buffer's share, and writes the 8192 × 1 array of row
  log-sum-exps; the 16 operations after it reduce to the loss. The arguments are written by no operation and by no
  window, so they end as launched; the result is the later operations' term of the region's output array and of the
  two normalised inputs.
-/
import proofs.«101070_j27547920236997_2_alg».proof.Proof.WOut

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- The unscoped buffers the later operations run within: all but the stacked array, which they never name. -/
def tailRefs : Finset (DevRef τ sig) := (Pipeline.ucRefs τ sig).erase (Proc.devRef .tc main_v17)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The operations before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- No later operation names the stacked array. -/
theorem hostOps1_sub_tail : ∀ op ∈ (hostOps1 : List (HloOp τ sig (Elt F))), op.bufs ⊆ tailRefs := by
  intro op hop b hb
  refine Finset.mem_erase.mpr ⟨?_, Pipeline.sub_ucRefs op ((List.forall_iff_forall_mem.mp hostOps1_sub) op hop) hb⟩
  simp only [hostOps1, List.mem_cons, List.mem_nil_iff, or_false] at hop
  rcases hop with rfl | rfl | rfl | rfl | rfl | rfl | rfl | rfl | rfl | rfl | rfl | rfl | rfl | rfl | rfl | rfl
  all_goals
    simp only [StableHlo.nullary_bufs, StableHlo.unary_bufs, StableHlo.binary_bufs, StableHlo.reshape_bufs,
      Finset.mem_insert, Finset.mem_singleton] at hb
    first
      | (rcases hb with rfl | rfl | rfl <;> exact StableHlo.devRef_ne_of_ne (by decide))
      | (rcases hb with rfl | rfl <;> exact StableHlo.devRef_ne_of_ne (by decide))
      | (subst hb; exact StableHlo.devRef_ne_of_ne (by decide))

/-- The operations after the region, over the buffers they may name. -/
def seg1 : Pipeline.HostSeg (Name := ℕ) (U := UR sig nD τ) (pcfgs (F := F)) defs₀ 𝒱₀ L lv :=
  Pipeline.HostSeg.ofOps _ _ _ _ _ tailRefs hostOps1 hostOps1_sub_tail hostOps1_fresh (V1 m) R

/-! ## The region's arrays, in and out -/

/-- The two buffers behind the three windows are unscoped buffers of the core. -/
theorem arrs_sub : ({Proc.devRef .tc main_v17, Proc.devRef .tc main_v18} : Finset (DevRef τ sig)) ⊆ Pipeline.ucRefs τ sig := by
  intro b hb
  simp only [Finset.mem_insert, Finset.mem_singleton] at hb
  unfold Pipeline.ucRefs
  rcases hb with rfl | rfl
  · exact Finset.mem_filter.mpr ⟨StableHlo.devRef_mem_tcRefs _, by decide⟩
  · exact Finset.mem_filter.mpr ⟨StableHlo.devRef_mem_tcRefs _, by decide⟩

/-- A set of two buffers held is the two points-tos. -/
theorem held_pair (c : Dev nD) (a b : DevRef τ sig) (h : a ≠ b) (W : Valuation τ sig (Elt F)) :
    (StableHlo.held (c : Thread nD τ) {a, b} W : sProp 𝕄)
      = iprop((((c : Thread nD τ).1, a) ↦{fullShare} W a) ∗ (((c : Thread nD τ).1, b) ↦{fullShare} W b)) := by
  unfold StableHlo.held
  rw [bigSep_insert (by rwa [Finset.mem_singleton]), bigSep_singleton]
  rfl

/-- One more buffer held beside a set is its points-to beside the set held. -/
theorem held_insert (c : Dev nD) (a : DevRef τ sig) (S : Finset (DevRef τ sig)) (h : a ∉ S) (W : Valuation τ sig (Elt F)) :
    (StableHlo.held (c : Thread nD τ) (insert a S) W : sProp 𝕄)
      = iprop((((c : Thread nD τ).1, a) ↦{fullShare} W a) ∗ StableHlo.held (c : Thread nD τ) S W) := by
  unfold StableHlo.held
  rw [bigSep_insert h]
  rfl

/-- Each window's array, as the points-to of the buffer behind it at the window's share. -/
theorem arr_pt0 (c : Dev nD) (n : ℕ) :
    ((cfg0.win 0).arr.view.loc (c : Thread nD τ) ↦[(cfg0.win 0).arr.view.set]{(dats m 0 c).share 0} (dats m 0 c).arrAt 0 n : sProp 𝕄)
      = (((c : Thread nD τ).1, Proc.devRef .tc main_v17) ↦{fullShare.left} (dats m 0 c).arrAt 0 n) := by
  rw [(arr_whole0 0).set_eq_univ]; rfl
theorem arr_pt1 (c : Dev nD) (n : ℕ) :
    ((cfg0.win 1).arr.view.loc (c : Thread nD τ) ↦[(cfg0.win 1).arr.view.set]{(dats m 0 c).share 1} (dats m 0 c).arrAt 1 n : sProp 𝕄)
      = (((c : Thread nD τ).1, Proc.devRef .tc main_v17) ↦{fullShare.right} (dats m 0 c).arrAt 1 n) := by
  rw [(arr_whole0 1).set_eq_univ]; rfl
theorem arr_pt2 (c : Dev nD) (n : ℕ) :
    ((cfg0.win 2).arr.view.loc (c : Thread nD τ) ↦[(cfg0.win 2).arr.view.set]{(dats m 0 c).share 2} (dats m 0 c).arrAt 2 n : sProp 𝕄)
      = (((c : Thread nD τ).1, Proc.devRef .tc main_v18) ↦{fullShare} (dats m 0 c).arrAt 2 n) := by
  rw [(arr_whole0 2).set_eq_univ]; rfl

/-- ENTRY: the stacked array's buffer, split into its two half shares, and the output's buffer are the windows' arrays
    at their entry contents. -/
theorem arrays_entry (c : Dev nD) :
    (StableHlo.held (c : Thread nD τ) {Proc.devRef .tc main_v17, Proc.devRef .tc main_v18} (V0 m c) : sProp 𝕄)
      ⊢ (dats m 0 c).arrays ((dats m 0 c).arrAt · 0) := by
  rw [held_pair c _ _ (StableHlo.devRef_ne_of_ne (by decide))]
  unfold Dat.arrays
  rw [bigSep_W0, arr_pt0, arr_pt1, arr_pt2]
  refine (sep_mono (pointsTo_share (PosShare.mem_left_op_right fullShare)).1 .rfl).trans ?_
  iintro ⟨⟨Hl, Hr⟩, H18⟩
  isplitl [Hl]; · iexact Hl
  isplitl [Hr]; · iexact Hr
  iexact H18

/-- The later operations' buffers are the output's and everything the windows do not touch. -/
theorem tailRefs_eq : (tailRefs : Finset (DevRef τ sig))
    = insert (Proc.devRef .tc main_v18) ((Pipeline.ucRefs τ sig) \ {Proc.devRef .tc main_v17, Proc.devRef .tc main_v18}) := by
  ext b
  simp only [tailRefs, Finset.mem_erase, Finset.mem_insert, Finset.mem_sdiff, Finset.mem_singleton, not_or]
  constructor
  · rintro ⟨h17, hb⟩
    by_cases h18 : b = Proc.devRef .tc main_v18
    · exact Or.inl h18
    · exact Or.inr ⟨hb, h17, h18⟩
  · rintro (rfl | ⟨hb, h17, -⟩)
    · exact ⟨StableHlo.devRef_ne_of_ne (by decide), arrs_sub (by simp)⟩
    · exact ⟨h17, hb⟩

variable (hbody : ∀ c, BodyObligation (dats (F := F) m 0 c) (defs₀ (F := F)) 𝒱₀ () Set.univ)

set_option backward.isDefEq.respectTransparency.types false in
/-- The region, entered from what the first line of operations left. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) tailRefs (V1 m c) ∗ R c)
  X c := iprop(emp)
  Y c := iprop(emp)
  Z c := StableHlo.held (c : Thread nD τ) ((Pipeline.ucRefs τ sig) \ {Proc.devRef .tc main_v17, Proc.devRef .tc main_v18}) (V0 m c)
  hentry c := by
    rw [StableHlo.held_sub_split (c : Thread nD τ) (arrs_sub) (V0 m c), Pipeline.ownSems0_none]
    iintro ⟨⟨⟨Hab, Hrest⟩, HO⟩, -, -⟩
    imodintro
    isplitl [Hab]; · iapply (arrays_entry m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    have h : (Pipeline.scopedRest (Ix := Unit) (Name := ℕ) (U := UR sig nD τ) (Lvl := ℕ) (Val := Elt F) spec0 c : sProp 𝕄) ⊢ (dats m 0 c).Φ 0 := by
      rw [scopedRest0_eq, show (dats m 0 c).Φ 0 = iprop(∃ d, owns (c : Thread nD τ) scM fullShare d) from rfl]
      simp only [scM, owns_whole]; exact .rfl
    iintro ⟨-, -, Hr⟩; iapply h; iexact Hr
  hout c := by
    rw [Pipeline.ownSems0_none]
    have h : (dats m 0 c).Φ (Fin.last cfg0.N) ⊢ (Pipeline.scopedRest (Ix := Unit) (Name := ℕ) (U := UR sig nD τ) (Lvl := ℕ) (Val := Elt F) spec0 c : sProp 𝕄) := by
      rw [scopedRest0_eq, show (dats m 0 c).Φ (Fin.last cfg0.N) = PhiAt m c cfg0.N (le_refl _) from rfl,
        PhiAt_pos m c _ _ (by rw [show cfg0.N = 32 from N_0]; decide)]
      simp only [scM, owns_whole]
      iintro H; iexists _; iexact H
    iintro H
    isplitr; · iempintro
    isplitr; · iempintro
    iapply h; iexact H
  hexit c := by
    unfold Dat.arrays
    rw [bigSep_W0, arr_pt0, arr_pt1, arr_pt2, tailRefs_eq, held_insert c _ _ (by simp),
      show V1 m c (Proc.devRef .tc main_v18) = (dats m 0 c).arrAt 2 cfg0.N from Function.update_self ..,
      StableHlo.held_congr (c : Thread nD τ) (V := V1 m c) (V' := V0 m c) (fun b hb => Function.update_of_ne (by
        intro e; subst e; simp at hb) ..)]
    iintro ⟨⟨-, -, H18⟩, HO, -, HZ⟩
    imodintro
    isplitr [HO]
    · isplitl [H18]
      · iexact H18
      · iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) :=
  [.host (seg0 m), .region (reg0 m hbody), .host (seg1 m)]

/-- The buffers at the end: the later operations have run. -/
abbrev Vend (c : Dev nD) : Valuation τ sig (Elt F) := StableHlo.after hostOps1 (V1 m c)

/-- The last thread state. -/
abbrev Tₙ (c : Dev nD) : sProp 𝕄 := StableHlo.held (c : Thread nD τ) tailRefs (Vend m c)

/-- The launch element: the pipeline library's, at the staging cells and the pipeline's transfers. -/
def u₀ : UR sig nD τ := initOf (Pipeline.cells cfgs cellOf_inj) (Pipeline.launchToks cfgs cellOf_inj)

/-- The three buffers the claims read are among those the later operations run within. -/
theorem mem_tail_of_ne (b : Ref sig .tc) (hs : (Proc.devRef .tc b : DevRef τ sig).isScoped = false) (h : b ≠ main_v17) :
    (Proc.devRef .tc b : DevRef τ sig) ∈ (tailRefs : Finset (DevRef τ sig)) := by
  unfold tailRefs Pipeline.ucRefs
  exact Finset.mem_erase.mpr ⟨StableHlo.devRef_ne_of_ne h, Finset.mem_filter.mpr ⟨StableHlo.devRef_mem_tcRefs _, by rw [hs]; exact Bool.false_ne_true⟩⟩

/-- What a final memory holds: the result at the later operations' term, the two arguments at what that valuation
    gives them. -/
def QC : PUnit × MemSt nD τ sig (Elt F) → Prop := fun r => ∀ c : Dev nD,
  r.2.mem ((c : Thread nD τ).1, Proc.devRef .tc main_v28) = Vend m c (Proc.devRef .tc main_v28)
  ∧ r.2.mem ((c : Thread nD τ).1, Proc.devRef .tc main_arg0) = Vend m c (Proc.devRef .tc main_arg0)
  ∧ r.2.mem ((c : Thread nD τ).1, Proc.devRef .tc main_arg1) = Vend m c (Proc.devRef .tc main_arg1)

include hbody in
set_option backward.isDefEq.respectTransparency.types false in
/-- At the compiled mesh, from any memory with zero counters: every weakly fair execution of @main on the TensorCores
    terminates, nothing faulting, with the result and the two arguments at the final valuation's contents. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m hbody)
    (fun c Q => by rw [main_segs adm (dats m) () 𝒱₀ L lv (seg0 m) (seg1 m) (reg0 m hbody) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).1, Proc.devRef .tc main_v28) = Vend m c (Proc.devRef .tc main_v28)
      ∧ s.mem ((c : Thread nD τ).1, Proc.devRef .tc main_arg0) = Vend m c (Proc.devRef .tc main_arg0)
      ∧ s.mem ((c : Thread nD τ).1, Proc.devRef .tc main_arg1) = Vend m c (Proc.devRef .tc main_arg1))
    (hfin := fun c s' => by
      have hr := pointsTo_read_all (Ix := Unit) (Name := ℕ) (U := UR sig nD τ) (Lvl := ℕ) (tailRefs : Finset (DevRef τ sig))
        (fun b => ((c : Thread nD τ).1, b)) (fun b => Vend m c b) s'
      show iprop(StableHlo.held (c : Thread nD τ) tailRefs (Vend m c) ∗ SI s') ⊢ _
      unfold StableHlo.held
      iintro ⟨Hh, HSI⟩
      ihave Hr := hr $$ [Hh HSI]
      · isplitl [Hh] <;> iassumption
      icases Hr with ⟨%ha, HSI⟩
      imodintro
      isplitr
      · ipureintro
        exact ⟨ha _ (mem_tail_of_ne main_v28 rfl (by decide)), ha _ (mem_tail_of_ne main_arg0 rfl (by decide)),
          ha _ (mem_tail_of_ne main_arg1 rfl (by decide))⟩
      iexact HSI)
    (hQ := fun _ h => h)

/-- No operation writes an argument, and no window is on one: the final valuation has them as launched. -/
theorem Vend_arg (c : Dev nD) (b : Ref sig .tc)
    (h0 : ∀ op ∈ (hostOps0 : List (HloOp τ sig (Elt F))), Proc.devRef .tc b ∉ op.writes)
    (h1 : ∀ op ∈ (hostOps1 : List (HloOp τ sig (Elt F))), Proc.devRef .tc b ∉ op.writes) (hb : b ≠ main_v18) :
    Vend m c (Proc.devRef .tc b) = m ((c : Thread nD τ).loc b) := by
  unfold Vend
  rw [StableHlo.after_of_forall_not_mem hostOps1 (V1 m c) h1, V1_of_ne m c _ (StableHlo.devRef_ne_of_ne hb)]
  exact StableHlo.after_of_forall_not_mem hostOps0 (V₀ m c) h0

/-- No operation before the region writes an argument; -/
theorem args_kept0 (b : Ref sig .tc) (hb : b = main_arg0 ∨ b = main_arg1) :
    ∀ op ∈ (hostOps0 : List (HloOp τ sig (Elt F))), Proc.devRef .tc b ∉ op.writes := by
  intro op hop
  simp only [hostOps0, List.mem_cons, List.mem_nil_iff, or_false] at hop
  rcases hb with rfl | rfl <;>
    (rcases hop with rfl | rfl | rfl | rfl | rfl | rfl | rfl | rfl | rfl | rfl | rfl | rfl | rfl | rfl | rfl | rfl | rfl | rfl | rfl | rfl | rfl | rfl <;>
      simp only [StableHlo.unary_writes, StableHlo.binary_writes, StableHlo.nullary_writes, Finset.mem_singleton] <;>
      exact StableHlo.devRef_ne_of_ne (by decide))

/-- nor does one after it. -/
theorem args_kept1 (b : Ref sig .tc) (hb : b = main_arg0 ∨ b = main_arg1) :
    ∀ op ∈ (hostOps1 : List (HloOp τ sig (Elt F))), Proc.devRef .tc b ∉ op.writes := by
  intro op hop
  simp only [hostOps1, List.mem_cons, List.mem_nil_iff, or_false] at hop
  rcases hb with rfl | rfl <;>
    (rcases hop with rfl | rfl | rfl | rfl | rfl | rfl | rfl | rfl | rfl | rfl | rfl | rfl | rfl | rfl | rfl | rfl <;>
      simp only [StableHlo.unary_writes, StableHlo.binary_writes, StableHlo.nullary_writes, StableHlo.reshape_writes, Finset.mem_singleton] <;>
      exact StableHlo.devRef_ne_of_ne (by decide))

/-- So the final valuation has both arguments as launched. -/
theorem Vend_arg0 (c : Dev nD) : Vend m c (Proc.devRef .tc main_arg0) = m ((c : Thread nD τ).loc main_arg0) :=
  Vend_arg m c main_arg0 (args_kept0 main_arg0 (Or.inl rfl)) (args_kept1 main_arg0 (Or.inl rfl)) (by decide)
theorem Vend_arg1 (c : Dev nD) : Vend m c (Proc.devRef .tc main_arg1) = m ((c : Thread nD τ).loc main_arg1) :=
  Vend_arg m c main_arg1 (args_kept0 main_arg1 (Or.inr rfl)) (args_kept1 main_arg1 (Or.inr rfl)) (by decide)

end Cert.Kernel.Hand

end
-- ==== Proof.WBody.lean ====
/-
  The kernel body's obligation at every grid point.

  The body meets the 4 × 8 grid in three ways. At the first column block of a row block it overwrites the scratch
  with zeros, then adds the point's row-sum payload to it; at a column block that is neither first nor last it adds
  the payload to what the scratch held; at the last column block it adds the payload and then stores the closing
  payload of the scratch into the output window's buffer. Both ends at once never happens (a row block has 8 > 1
  column blocks). Every load and store is through the whole buffer, so a load reads the contents and a store, made
  last, is what the buffer then reads.

  Each case is run once over arbitrary whole memrefs and contents (`runFirst`, `runMiddle`, `runLast`), the stores'
  results named by the payloads. The obligation at a point then follows by the point's residue mod 8: the inputs'
  buffers hold their blocks at every point; the output buffer is handed back as found where the window is idle, and
  holds the closing payload where it is stored; the scratch goes from what the point before left to this point's
  contents.
-/
import proofs.«101070_j27547920236997_2_alg».proof.Proof.WData
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Whole-buffer loads and stores -/

/-- The zero offsets, however spelt. -/
theorem kb_hz : (![0, 0] : Fin 2 → Nat) = fun _ => 0 := funext fun a => by fin_cases a <;> rfl

/-- A load through the whole-shape rectangle at zero offsets reads the contents. -/
theorem kb_readAt_whole {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store through it, made last, is what the buffer then reads, whatever was stored before. -/
theorem kb_read_store_whole {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-! ## The three runs of the body -/

set_option maxHeartbeats 1000000 in
theorem runMiddle (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (h1 : ¬condFirst i) (h2 : ¬condLast i)
    (x0 : Vec F S2048x128 .bf16) (x1 : Vec F S1024x128 .bf16) (xo : Vec F S2048x1 .f32) (xs : Vec F S2048x1 .f32)
    (K : PUnit → sProp 𝕄) :
    iprop(owns (c : Thread nD τ) arg2 fullShare x0 ∗ owns (c : Thread nD τ) arg3 fullShare x1
          ∗ owns (c : Thread nD τ) arg4 fullShare xo ∗ owns (c : Thread nD τ) scM fullShare xs
          ∗ (iprop(owns (c : Thread nD τ) arg2 fullShare x0 ∗ owns (c : Thread nD τ) arg3 fullShare x1
              ∗ owns (c : Thread nD τ) arg4 fullShare xo ∗ owns (c : Thread nD τ) scM fullShare (k0_pay3 i x0 x1 xs)) -∗ K ⟨⟩))
      ⊢ wp frame (wpE (defs₀ (F := F)) Variants.none c none) Set.univ
          (cc0__lse_kernel i arg2 harg2 arg3 harg3 arg4 harg4 scM (Memref.isWhole_whole _)) K := by
  simp only [cc0__lse_kernel_eq_skeleton]; unfold cc0__lse_kernel_skel
  simp only [k0_part1_eq_skeleton]; unfold k0_part1_skel
  unfold owns
  iintro ⟨⟨%f0, %hf0, H0⟩, ⟨%f1, %hf1, H1⟩, Ho, ⟨%fs, %hfs, HS⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexact Ho
  iexists _; isplitr; swap; · iexact HS
  ipureintro
  rw [kb_read_store_whole _ _ kb_hz, kb_readAt_whole _ _ kb_hz, kb_readAt_whole _ _ kb_hz, kb_readAt_whole _ _ kb_hz,
    harg2.read_unread, harg3.read_unread, hfs]

set_option maxHeartbeats 1000000 in
theorem runFirst (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (h1 : condFirst i) (h2 : ¬condLast i)
    (x0 : Vec F S2048x128 .bf16) (x1 : Vec F S1024x128 .bf16) (xo : Vec F S2048x1 .f32)
    (K : PUnit → sProp 𝕄) :
    iprop(owns (c : Thread nD τ) arg2 fullShare x0 ∗ owns (c : Thread nD τ) arg3 fullShare x1
          ∗ owns (c : Thread nD τ) arg4 fullShare xo ∗ (∃ d, owns (c : Thread nD τ) scM fullShare d)
          ∗ (iprop(owns (c : Thread nD τ) arg2 fullShare x0 ∗ owns (c : Thread nD τ) arg3 fullShare x1
              ∗ owns (c : Thread nD τ) arg4 fullShare xo ∗ owns (c : Thread nD τ) scM fullShare (k0_pay3 i x0 x1 (k0_pay2 (F := F)))) -∗ K ⟨⟩))
      ⊢ wp frame (wpE (defs₀ (F := F)) Variants.none c none) Set.univ
          (cc0__lse_kernel i arg2 harg2 arg3 harg3 arg4 harg4 scM (Memref.isWhole_whole _)) K := by
  simp only [cc0__lse_kernel_eq_skeleton]; unfold cc0__lse_kernel_skel
  simp only [k0_part1_eq_skeleton]; unfold k0_part1_skel
  unfold owns
  iintro ⟨⟨%f0, %hf0, H0⟩, ⟨%f1, %hf1, H1⟩, Ho, ⟨%xs, %fs, %hfs, HS⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexact Ho
  iexists _; isplitr; swap; · iexact HS
  ipureintro
  rw [kb_read_store_whole _ _ kb_hz, kb_readAt_whole _ _ kb_hz, kb_readAt_whole _ _ kb_hz,
    harg2.read_unread, harg3.read_unread]
  sl_unfold_run_names
  rw [View.readCov_unit_zero _ kb_hz]

set_option maxHeartbeats 1000000 in
theorem runLast (c : Dev nD) (i : grid0.Coords)
    (arg2 : Memref sig .tc .vmem S2048x128 .bf16) (harg2 : arg2.IsWhole)
    (arg3 : Memref sig .tc .vmem S1024x128 .bf16) (harg3 : arg3.IsWhole)
    (arg4 : Memref sig .tc .vmem S2048x1 .f32) (harg4 : arg4.IsWhole)
    (h1 : ¬condFirst i) (h2 : condLast i)
    (x0 : Vec F S2048x128 .bf16) (x1 : Vec F S1024x128 .bf16) (xs : Vec F S2048x1 .f32)
    (K : PUnit → sProp 𝕄) :
    iprop(owns (c : Thread nD τ) arg2 fullShare x0 ∗ owns (c : Thread nD τ) arg3 fullShare x1
          ∗ (∃ d, owns (c : Thread nD τ) arg4 fullShare d) ∗ owns (c : Thread nD τ) scM fullShare xs
          ∗ (iprop(owns (c : Thread nD τ) arg2 fullShare x0 ∗ owns (c : Thread nD τ) arg3 fullShare x1
              ∗ owns (c : Thread nD τ) arg4 fullShare (k0_pay1 (k0_pay3 i x0 x1 xs))
              ∗ owns (c : Thread nD τ) scM fullShare (k0_pay3 i x0 x1 xs)) -∗ K ⟨⟩))
      ⊢ wp frame (wpE (defs₀ (F := F)) Variants.none c none) Set.univ
          (cc0__lse_kernel i arg2 harg2 arg3 harg3 arg4 harg4 scM (Memref.isWhole_whole _)) K := by
  simp only [cc0__lse_kernel_eq_skeleton]; unfold cc0__lse_kernel_skel
  simp only [k0_part1_eq_skeleton]; unfold k0_part1_skel
  unfold owns
  iintro ⟨⟨%f0, %hf0, H0⟩, ⟨%f1, %hf1, H1⟩, ⟨%xo, %fo, %hfo, Ho⟩, ⟨%fs, %hfs, HS⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [Ho]
  · iexists _; isplitr; swap; · iexact Ho
    ipureintro
    rw [kb_read_store_whole _ _ kb_hz]
    sl_unfold_run_names
    refine congrArg (k0_pay1 (F := F)) ((View.readCov_unit_zero scM.view kb_hz inb_S2048x1_S2048x1_0_0 _).trans ?_)
    rw [kb_readAt_whole _ _ kb_hz, kb_readAt_whole _ _ kb_hz, kb_readAt_whole _ _ kb_hz,
      harg2.read_unread, harg3.read_unread, hfs]
  iexists _; isplitr; swap; · iexact HS
  ipureintro
  sl_unfold_run_names
  rw [kb_read_store_whole _ _ kb_hz, kb_readAt_whole _ _ kb_hz, kb_readAt_whole _ _ kb_hz, kb_readAt_whole _ _ kb_hz,
    harg2.read_unread, harg3.read_unread, hfs]

/-! ## The body obligation, at a generic point -/

/-- Each input window's current buffer holds its block at every point, fetched there or not: the body leaves the
    block in place and the window is never idle. -/
theorem kb_before0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)

theorem kb_before1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)

/-- The invariant before any position owns the scratch at some contents. -/
theorem kb_PhiAt_any (c : Dev nD) (n : ℕ) (h : n ≤ cfg0.N) :
    PhiAt m c n h ⊢ iprop(∃ d, owns (c : Thread nD τ) scM fullShare d) := by
  cases n with
  | zero => exact Idealize.SL.BI.Entails.refl _
  | succ n => unfold PhiAt; iintro H; iexists _; iexact H

/-- What the body is called with at point `t`, the windows one by one, -/
def kb_bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def kb_bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem kb_leaves0 (c : Dev nD) (t : Fin cfg0.N) :
    (dats m 0 c).leavesExact 0 t = owns (c : Thread nD τ) (st0_0 t) fullShare (iblk m c 0 t) := by
  unfold Dat.leavesExact; rw [live_in0 t, after_in0]

theorem kb_leaves1 (c : Dev nD) (t : Fin cfg0.N) :
    (dats m 0 c).leavesExact 1 t = owns (c : Thread nD τ) (st0_1 t) fullShare (iblk m c 1 t) := by
  unfold Dat.leavesExact; rw [live_in1 t, after_in1]

/-- Where the output window is idle its buffer is handed back as found; -/
theorem kb_leaves2_idle (c : Dev nD) (t : Fin cfg0.N) (h7 : t.val % 8 ≠ 7) :
    (dats m 0 c).leavesExact 2 t
      = iprop(∃ d, owns (c : Thread nD τ) (st0_2 t) fullShare ((dats m 0 c).before 2 t d)) :=
  Dat.leavesExact_idle (dats m 0 c) 2 t ((idle_out_iff t).mpr h7)
    (Bool.eq_false_iff.mpr fun h => h7 ((flush0_2 t).mp h))

/-- where it is stored, it holds the closing payload of the scratch. -/
theorem kb_leaves2_live (c : Dev nD) (t : Fin cfg0.N) (h7 : t.val % 8 = 7) :
    (dats m 0 c).leavesExact 2 t
      = owns (c : Thread nD τ) (st0_2 t) fullShare (k0_pay1 (accAt m c t.val t.isLt)) := by
  unfold Dat.leavesExact
  rw [show cfg0.idle 2 (grid0.coords t) = false from Bool.eq_false_iff.mpr fun h => (idle_out_iff t).mp h h7, after_out]
  rfl

set_option maxHeartbeats 4000000 in
/-- The body at any point: the inputs' buffers hold their blocks; the point's residue says which case it is in; the
    invariant hands the body the scratch at what the point before left (at anything before the first point, where
    the body overwrites it first) and takes it back at this point's contents; the core owes nothing throughout. -/
theorem kb_sound_body (c : Dev nD) (t : Fin cfg0.N) :
    kb_bodyPre m c t ⊢ wp frame (wpE (defs₀ (F := F)) Variants.none c none) Set.univ (bodyAt0 t) (fun _ => kb_bodyPost m c t) := by
  unfold kb_bodyPre kb_bodyPost bodyAt0
  simp only [kb_before0, kb_before1]
  rw [show (dats m 0 c).owesAt () t.succ = (dats m 0 c).owesAt () t.castSucc from rfl]
  rw [Phi_succ, Phi_castSucc, kb_leaves0, kb_leaves1]
  have hN : t.val < 32 := lt_of_lt_of_eq t.isLt (show cfg0.N = 32 from N_0)
  by_cases h0 : t.val % 8 = 0
  · by_cases h7 : t.val % 8 = 7
    · exfalso; omega
    · rw [kb_leaves2_idle m c t h7, accAt_first m c t h0]
      iintro ⟨HS, Ho, ⟨%d0, H0⟩, ⟨%d1, H1⟩, ⟨%d2, H2⟩⟩
      iapply (runFirst c (grid0.coords t) _ _ _ _ _ _ ((condFirst_iff t).mpr h0) (fun h => h7 ((condLast_iff t).mp h))
        (iblk m c 0 t) (iblk m c 1 t) ((dats m 0 c).before 2 t d2) _)
      isplitl [H0]; · iexact H0
      isplitl [H1]; · iexact H1
      isplitl [H2]; · iexact H2
      isplitl [HS]; · iapply (kb_PhiAt_any m c _ _); iexact HS
      iintro ⟨H0, H1, H2, HS⟩
      isplitl [HS]; · iexact HS
      isplitl [Ho]; · iexact Ho
      isplitl [H0]; · iexact H0
      isplitl [H1]; · iexact H1
      iexists _; iexact H2
  · have hz : t.val ≠ 0 := fun e => h0 (by rw [e])
    rw [PhiAt_pos m c _ _ hz, accAt_step m c t h0]
    by_cases h7 : t.val % 8 = 7
    · rw [kb_leaves2_live m c t h7, accAt_step m c t h0]
      iintro ⟨HS, Ho, ⟨%d0, H0⟩, ⟨%d1, H1⟩, ⟨%d2, H2⟩⟩
      iapply (runLast c (grid0.coords t) _ _ _ _ _ _ (fun h => h0 ((condFirst_iff t).mp h)) ((condLast_iff t).mpr h7)
        (iblk m c 0 t) (iblk m c 1 t) (accAt m c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · rw [kb_leaves2_idle m c t h7]
      iintro ⟨HS, Ho, ⟨%d0, H0⟩, ⟨%d1, H1⟩, ⟨%d2, H2⟩⟩
      iapply (runMiddle c (grid0.coords t) _ _ _ _ _ _ (fun h => h0 ((condFirst_iff t).mp h)) (fun h => h7 ((condLast_iff t).mp h))
        (iblk m c 0 t) (iblk m c 1 t) ((dats m 0 c).before 2 t d2)
        (accAt m c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact kb_sound_body m c t

end Cert.Kernel.Hand

end
-- ==== Proof.Frames.lean ====
/-
  The two kernel programs' frames.

  Each program's run ends with both argument arrays at what the final valuation gives them, and no host operation
  and no window of the region writes an argument, so that is what they held at launch. The word-level program and
  the idealized one differ in one constant of the body; the argument is the same text at both.
-/
import proofs.«101070_j27547920236997_2_alg».proof.Defs
import proofs.«101070_j27547920236997_2_alg».proof.Proof.Gen.Kernel
import proofs.«101070_j27547920236997_2_alg».proof.Proof.Gen.KernelIdeal
import proofs.«101070_j27547920236997_2_alg».proof.Proof.Gen.Pre_finite_inputs
import proofs.«101070_j27547920236997_2_alg».proof.Proof.KLaunch
import proofs.«101070_j27547920236997_2_alg».proof.Proof.KBody
import proofs.«101070_j27547920236997_2_alg».proof.Proof.WLaunch
import proofs.«101070_j27547920236997_2_alg».proof.Proof.WBody

noncomputable section

namespace Cert.Proof.Frames

open Idealize.ShloMosaic Idealize.ShloMosaic.TcCoe Idealize.SL.Sem

/-- The word-level kernel program runs and leaves its arguments unchanged. -/
theorem frame_k : Cert.frame_Kernel := fun m ρ _ =>
  (θ_run (Cert.Kernel.defs (F := Bits)) _ _).mono
    (fun r h c => ⟨((h c).2.1).trans (Cert.Kernel.Hand.Vend_arg0 m c), ((h c).2.2).trans (Cert.Kernel.Hand.Vend_arg1 m c)⟩)
    (Cert.Kernel.Hand.run_main m ρ (Cert.Kernel.Hand.body_obligation m))

/-- So does the idealized one. -/
theorem frame_ki : Cert.frame_KernelIdeal := fun m ρ _ =>
  (θ_run (Cert.KernelIdeal.defs (F := Ideal)) _ _).mono
    (fun r h c => ⟨((h c).2.1).trans (Cert.KernelIdeal.Hand.Vend_arg0 m c), ((h c).2.2).trans (Cert.KernelIdeal.Hand.Vend_arg1 m c)⟩)
    (Cert.KernelIdeal.Hand.run_main m ρ (Cert.KernelIdeal.Hand.body_obligation m))

end Cert.Proof.Frames

end
-- ==== Proof.Spec.lean ====
/-
  The two losses as functions of the normalised rows.

  Both programs first divide every row of the two inputs by the larger of its Euclidean norm and a small positive
  constant, and stack the results into 8192 rows `r i` of 128 coordinates. Write `dot r i j` for the inner product of
  rows `i` and `j`.

  The kernel side: row `i`'s logits are `2 · dot r i j` off the diagonal and `-∞` on it; its log-sum-exp is taken with the
  FIXED shift 2, `2 + log (∑ j, exp (logit i j - 2))`; the positive pair of row `i < 4096` is `2 · dot r i (i + 4096)`; the
  loss is the mean of the log-sum-exps minus the mean of the 4096 positive pairs.

  The reference side: the logits are `dot r i j / (1/2)` off the diagonal and `-∞` on it; each row is shifted by its own
  maximum, `logp i j = (logit i j - max_i) - log (∑ k, exp (logit i k - max_i))`; the loss is minus the mean over all 8192
  rows of `logp i (label i)`, the label of row `i` being `i + 4096` below 4096 and `i - 4096` from there on.

  On finite rows the two are one real number: a log-sum-exp does not depend on its shift, and each positive pair is
  counted twice among 8192 rows, which is once among 4096.
-/
import Idealize.ShloMosaic.PureOps.Ideal
import Idealize.ShloMosaic.Lib.ValueIdx

noncomputable section

namespace Cert.Contrast

open Idealize.ShloMosaic

/-- The stacked rows: 8192 of them, 128 coordinates each. -/
abbrev Rows := Fin 8192 → Fin 128 → EReal

/-- One input row divided by the larger of its Euclidean norm and the constant the pattern `0x2B8CBCCC` denotes. -/
def normRow (x : Fin 128 → EReal) (d : Fin 128) : EReal :=
  Ideal.div (x d) (max (Ideal.sqrt (∑ e : Fin 128, x e * x e)) (Ideal.ofBits .f32 0x2B8CBCCC#32))

/-- Row `i` of the first half, and of the second. -/
def lo (i : Fin 4096) : Fin 8192 := ⟨i.val, by omega⟩
def hi (i : Fin 4096) : Fin 8192 := ⟨4096 + i.val, by omega⟩

/-- The rows of both inputs, normalised and stacked: the first input's 4096 rows, then the second's. -/
def stack (a b : Fin 4096 → Fin 128 → EReal) : Rows := fun i d =>
  if h : i.val < 4096 then normRow (a ⟨i.val, h⟩) d else normRow (b ⟨i.val - 4096, by omega⟩) d

/-- The inner product of two rows. -/
def dot (r : Rows) (i j : Fin 8192) : EReal := ∑ d : Fin 128, r i d * r j d

/-! ## The kernel's side -/

def kLogit (r : Rows) (i j : Fin 8192) : EReal := if i = j then ⊥ else dot r i j * 2

def kLse (r : Rows) (i : Fin 8192) : EReal := 2 + Ideal.log (∑ j : Fin 8192, Ideal.exp (kLogit r i j - 2))

def kPos (r : Rows) (i : Fin 4096) : EReal := dot r (lo i) (hi i) * 2

def kLoss (r : Rows) : EReal :=
  Ideal.div (∑ i : Fin 8192, kLse r i) 8192 - Ideal.div (∑ i : Fin 4096, kPos r i) 4096

/-! ## The reference's side -/

def rLogit (r : Rows) (i j : Fin 8192) : EReal := if i = j then ⊥ else Ideal.div (dot r i j) ((1 / 2 : ℝ) : EReal)

/-- The row maximum, as the fold the reduction is. -/
def rMax (r : Rows) (i : Fin 8192) : EReal := Finset.univ.fold max ⊥ (rLogit r i)

def rShift (r : Rows) (i j : Fin 8192) : EReal := rLogit r i j - rMax r i

def rLogp (r : Rows) (i j : Fin 8192) : EReal := rShift r i j - Ideal.log (∑ k : Fin 8192, Ideal.exp (rShift r i k))

def label (i : Fin 8192) : Fin 8192 :=
  if h : i.val < 4096 then ⟨i.val + 4096, by omega⟩ else ⟨i.val - 4096, by omega⟩

def rLoss (r : Rows) : EReal := -(Ideal.div (∑ i : Fin 8192, rLogp r i (label i)) 8192)

/-! ## Of the two input arrays -/

/-- A `[4096, 128]` array as its 4096 rows. -/
def rowsOf (a : (⟨2, ![4096, 128]⟩ : Shape).Idx → EReal) : Fin 4096 → Fin 128 → EReal :=
  fun i d => a (ValueIdx.ix2 i d)

/-- The kernel's loss, and the reference's, of the two input arrays. -/
def kOut (a b : (⟨2, ![4096, 128]⟩ : Shape).Idx → EReal) : EReal := kLoss (stack (rowsOf a) (rowsOf b))
def rOut (a b : (⟨2, ![4096, 128]⟩ : Shape).Idx → EReal) : EReal := rLoss (stack (rowsOf a) (rowsOf b))

end Cert.Contrast

end
-- ==== Proof.LossAlgebra1.lean ====
/-
  The algebra of the two losses, part one: the normalised rows of real inputs are real, and the small facts about
  finite sums, the fold of `max` and the pairing of the rows that the comparison of the losses needs.
-/
import proofs.«101070_j27547920236997_2_alg».proof.Proof.Spec

noncomputable section

namespace Cert.Contrast

open Idealize.ShloMosaic

/-- The coercion of the reals into the extended reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The small constant of the normalisation is a positive real. -/
theorem eps_pos_real : ∃ ε : ℝ, 0 < ε ∧ Ideal.ofBits .f32 0x2B8CBCCC#32 = ((ε : ℝ) : EReal) := by
  refine ⟨9223372 * (2 : ℝ) ^ (-63 : ℤ), by positivity, ?_⟩
  simp [Ideal.ofBits, Ideal.ieee, -EReal.coe_mul]

/-- A normalised row of a real row is real. -/
theorem normRow_real (x : Fin 128 → ℝ) :
    ∃ z : Fin 128 → ℝ, ∀ d, normRow (fun e => ((x e : ℝ) : EReal)) d = ((z d : ℝ) : EReal) := by
  obtain ⟨ε, hε, he⟩ := eps_pos_real
  have hs : (∑ e : Fin 128, ((x e : ℝ) : EReal) * ((x e : ℝ) : EReal)) = ((∑ e : Fin 128, x e * x e : ℝ) : EReal) := by
    rw [← coe_sum]
    exact Finset.sum_congr rfl (fun e _ => (EReal.coe_mul _ _).symm)
  have hnn : 0 ≤ ∑ e : Fin 128, x e * x e := Finset.sum_nonneg (fun e _ => mul_self_nonneg _)
  have hmax : max (((Real.sqrt (∑ e : Fin 128, x e * x e) : ℝ)) : EReal) ((ε : ℝ) : EReal)
      = ((max (Real.sqrt (∑ e : Fin 128, x e * x e)) ε : ℝ) : EReal) :=
    (EReal.coe_strictMono.monotone.map_max).symm
  have hpos : max (Real.sqrt (∑ e : Fin 128, x e * x e)) ε ≠ 0 := ne_of_gt (lt_max_of_lt_right hε)
  refine ⟨fun d => x d * (1 / max (Real.sqrt (∑ e : Fin 128, x e * x e)) ε), fun d => ?_⟩
  unfold normRow
  rw [hs, Ideal.sqrt_coe, if_neg (not_lt.mpr hnn), he, hmax, Ideal.div_coe hpos, ← EReal.coe_mul]

/-- The stacked rows of two real arrays are real. -/
theorem stack_real (a b : Fin 4096 → Fin 128 → ℝ) : ∃ x : Fin 8192 → Fin 128 → ℝ,
    stack (fun i d => ((a i d : ℝ) : EReal)) (fun i d => ((b i d : ℝ) : EReal)) = fun i d => ((x i d : ℝ) : EReal) := by
  choose za hza using fun i => normRow_real (a i)
  choose zb hzb using fun i => normRow_real (b i)
  refine ⟨fun i d => if h : i.val < 4096 then za ⟨i.val, h⟩ d else zb ⟨i.val - 4096, by omega⟩ d, ?_⟩
  funext i d
  unfold stack
  by_cases h : i.val < 4096
  · simp only [dif_pos h]; exact hza _ d
  · simp only [dif_neg h]; exact hzb _ d

/-! ## The pairing of the rows -/

/-- A row is never its own positive. -/
theorem label_ne (i : Fin 8192) : label i ≠ i := by
  unfold label
  split
  · intro h; rw [Fin.ext_iff] at h; dsimp only at h; omega
  · intro h; rw [Fin.ext_iff] at h; dsimp only at h; omega

/-- The positive of a row of the first half is the same row of the second half. -/
theorem label_lo (i : Fin 4096) : label (lo i) = hi i := by
  unfold label
  split
  · apply Fin.ext; simp only [lo, hi]; omega
  · rename_i h; exfalso; simp only [lo] at h; omega

/-- The positive of a row of the second half is the same row of the first half. -/
theorem label_hi (i : Fin 4096) : label (hi i) = lo i := by
  unfold label
  split
  · rename_i h; exfalso; simp only [hi] at h; omega
  · apply Fin.ext; simp only [lo, hi]; omega

/-- A sum over the 8192 rows is the sum over the first half plus the sum over the second. -/
theorem sum_halves (F : Fin 8192 → ℝ) :
    ∑ i : Fin 8192, F i = ∑ i : Fin 4096, F (lo i) + ∑ i : Fin 4096, F (hi i) :=
  Fin.sum_univ_add (a := 4096) (b := 4096) F

/-! ## The fold of `max` -/

/-- A fold of `max` from `-∞` over values none of which is `+∞` and one of which is not `-∞` is a real. -/
theorem fold_max_real {ι : Type*} (s : Finset ι) (g : ι → EReal)
    (hlt : ∀ j ∈ s, g j ≠ ⊤) (hex : ∃ j ∈ s, g j ≠ ⊥) : ∃ M : ℝ, s.fold max ⊥ g = ((M : ℝ) : EReal) := by
  refine ⟨(s.fold max ⊥ g).toReal, (EReal.coe_toReal ?_ ?_).symm⟩
  · exact ne_of_lt ((Finset.fold_max_lt _).mpr ⟨bot_lt_top, fun j hj => lt_top_iff_ne_top.mpr (hlt j hj)⟩)
  · obtain ⟨j, hj, hb⟩ := hex
    exact ne_of_gt ((Finset.lt_fold_max _).mpr (Or.inr ⟨j, hj, bot_lt_iff_ne_bot.mpr hb⟩))

/-! ## A log-sum-exp does not depend on its shift -/

/-- The log-sum-exp of a row whose entry at `i` is `-∞` and whose other entries are the reals `f j`, every entry
    shifted down by a real `c`: the shift comes out of the logarithm. -/
theorem log_sum_exp_shift {ι : Type*} [Fintype ι] [DecidableEq ι] (i : ι) (f : ι → ℝ) (c : ℝ) (hne : ∃ j, j ≠ i) :
    Ideal.log (∑ j, Ideal.exp ((if i = j then (⊥ : EReal) else ((f j : ℝ) : EReal)) - ((c : ℝ) : EReal)))
      = ((Real.log (∑ j, if i = j then 0 else Real.exp (f j)) - c : ℝ) : EReal) := by
  have hterm : ∀ j, Ideal.exp ((if i = j then (⊥ : EReal) else ((f j : ℝ) : EReal)) - ((c : ℝ) : EReal))
      = ((Real.exp (-c) * (if i = j then 0 else Real.exp (f j)) : ℝ) : EReal) := by
    intro j
    by_cases h : i = j
    · rw [if_pos h, if_pos h, EReal.bot_sub, Ideal.exp_bot, mul_zero, EReal.coe_zero]
    · rw [if_neg h, if_neg h, ← EReal.coe_sub, Ideal.exp_coe, ← Real.exp_add]
      congr 2; ring
  have hS : 0 < ∑ j, if i = j then 0 else Real.exp (f j) := by
    obtain ⟨j, hj⟩ := hne
    refine Finset.sum_pos' (fun k _ => ?_) ⟨j, Finset.mem_univ _, ?_⟩
    · by_cases h : i = k
      · rw [if_pos h]
      · rw [if_neg h]; exact (Real.exp_pos _).le
    · rw [if_neg (Ne.symm hj)]; exact Real.exp_pos _
  rw [Finset.sum_congr rfl (fun j _ => hterm j), coe_sum, ← Finset.mul_sum, Ideal.log_coe,
    if_neg (not_le.mpr (mul_pos (Real.exp_pos _) hS)), Real.log_mul (Real.exp_pos _).ne' hS.ne', Real.log_exp]
  congr 1; ring

end Cert.Contrast

end
-- ==== Proof.LossAlgebra.lean ====
/-
  The algebra of the two losses, part two: on real rows both losses are the mean of the unshifted log-sum-exps of the
  rows minus the mean of the positive pairs, so they are one number.
-/
import proofs.«101070_j27547920236997_2_alg».proof.Proof.LossAlgebra1

noncomputable section

namespace Cert.Contrast

open Idealize.ShloMosaic

/-- The inner product of two real rows. -/
def dotR (x : Fin 8192 → Fin 128 → ℝ) (i j : Fin 8192) : ℝ := ∑ d : Fin 128, x i d * x j d

/-- `log ∑_{j ≠ i} exp (2 · ⟨x_i, x_j⟩)`: the log-sum-exp of row `i`, with no shift. -/
def lseR (x : Fin 8192 → Fin 128 → ℝ) (i : Fin 8192) : ℝ :=
  Real.log (∑ j : Fin 8192, if i = j then 0 else Real.exp (dotR x i j * 2))

variable (x : Fin 8192 → Fin 128 → ℝ)

/-- The inner product of real rows is the real inner product. -/
theorem dot_coe (i j : Fin 8192) : dot (fun i d => ((x i d : ℝ) : EReal)) i j = ((dotR x i j : ℝ) : EReal) := by
  unfold dot dotR
  rw [← coe_sum]
  exact Finset.sum_congr rfl (fun d _ => (EReal.coe_mul _ _).symm)

/-- The inner product is symmetric. -/
theorem dotR_comm (i j : Fin 8192) : dotR x i j = dotR x j i := by
  unfold dotR
  exact Finset.sum_congr rfl (fun d _ => mul_comm _ _)

/-- The kernel's logits on real rows: `-∞` on the diagonal, the real `2 · ⟨x_i, x_j⟩` off it. -/
theorem kLogit_coe (i j : Fin 8192) : kLogit (fun i d => ((x i d : ℝ) : EReal)) i j
    = if i = j then (⊥ : EReal) else ((dotR x i j * 2 : ℝ) : EReal) := by
  unfold kLogit
  rw [dot_coe, EReal.coe_mul]
  rfl

/-- The reference's logits on real rows are the same: dividing by one half is doubling. -/
theorem rLogit_coe (i j : Fin 8192) : rLogit (fun i d => ((x i d : ℝ) : EReal)) i j
    = if i = j then (⊥ : EReal) else ((dotR x i j * 2 : ℝ) : EReal) := by
  unfold rLogit
  have h2 : (1 / (1 / 2) : ℝ) = 2 := by norm_num
  rw [dot_coe, Ideal.div_coe (by norm_num : (1 / 2 : ℝ) ≠ 0), ← EReal.coe_mul, h2]

/-- The kernel's log-sum-exp of a row: the fixed shift 2 cancels. -/
theorem kLse_coe (i : Fin 8192) : kLse (fun i d => ((x i d : ℝ) : EReal)) i = ((lseR x i : ℝ) : EReal) := by
  unfold kLse
  have hsum : (∑ j : Fin 8192, Ideal.exp (kLogit (fun i d => ((x i d : ℝ) : EReal)) i j - 2))
      = ∑ j : Fin 8192, Ideal.exp ((if i = j then (⊥ : EReal) else ((dotR x i j * 2 : ℝ) : EReal)) - ((2 : ℝ) : EReal)) :=
    Finset.sum_congr rfl (fun j _ => by rw [kLogit_coe]; rfl)
  rw [hsum, log_sum_exp_shift i (fun j => dotR x i j * 2) 2 ⟨label i, label_ne i⟩,
    show (2 : EReal) = ((2 : ℝ) : EReal) from rfl, ← EReal.coe_add]
  unfold lseR
  congr 1; ring

/-- The kernel's positive pair on real rows. -/
theorem kPos_coe (i : Fin 4096) : kPos (fun i d => ((x i d : ℝ) : EReal)) i = ((dotR x (lo i) (hi i) * 2 : ℝ) : EReal) := by
  unfold kPos
  rw [dot_coe, EReal.coe_mul]
  rfl

/-- The reference's row maximum on real rows is a real. -/
theorem rMax_coe (i : Fin 8192) : ∃ M : ℝ, rMax (fun i d => ((x i d : ℝ) : EReal)) i = ((M : ℝ) : EReal) := by
  unfold rMax
  apply fold_max_real
  · intro j _
    rw [rLogit_coe]
    by_cases h : i = j
    · rw [if_pos h]; exact bot_ne_top
    · rw [if_neg h]; exact EReal.coe_ne_top _
  · refine ⟨label i, Finset.mem_univ _, ?_⟩
    rw [rLogit_coe, if_neg (label_ne i).symm]
    exact EReal.coe_ne_bot _

/-- The reference's log-probability of the positive of a row: the row maximum cancels. -/
theorem rLogp_coe (i : Fin 8192) : rLogp (fun i d => ((x i d : ℝ) : EReal)) i (label i)
    = ((dotR x i (label i) * 2 - lseR x i : ℝ) : EReal) := by
  obtain ⟨M, hM⟩ := rMax_coe x i
  unfold rLogp rShift
  rw [hM]
  have hsum : (∑ k : Fin 8192, Ideal.exp (rLogit (fun i d => ((x i d : ℝ) : EReal)) i k - ((M : ℝ) : EReal)))
      = ∑ k : Fin 8192, Ideal.exp ((if i = k then (⊥ : EReal) else ((dotR x i k * 2 : ℝ) : EReal)) - ((M : ℝ) : EReal)) :=
    Finset.sum_congr rfl (fun k _ => by rw [rLogit_coe])
  rw [hsum, log_sum_exp_shift i (fun j => dotR x i j * 2) M ⟨label i, label_ne i⟩, rLogit_coe,
    if_neg (label_ne i).symm, ← EReal.coe_sub, ← EReal.coe_sub]
  unfold lseR
  congr 1; ring

/-- Each positive pair is counted twice among the 8192 rows. -/
theorem sum_label : ∑ i : Fin 8192, dotR x i (label i) = 2 * ∑ i : Fin 4096, dotR x (lo i) (hi i) := by
  have h1 : ∑ i : Fin 4096, dotR x (lo i) (label (lo i)) = ∑ i : Fin 4096, dotR x (lo i) (hi i) :=
    Finset.sum_congr rfl (fun i _ => by rw [label_lo])
  have h2 : ∑ i : Fin 4096, dotR x (hi i) (label (hi i)) = ∑ i : Fin 4096, dotR x (lo i) (hi i) :=
    Finset.sum_congr rfl (fun i _ => by rw [label_hi, dotR_comm])
  rw [sum_halves, two_mul, h1, h2]

/-- The identity of the two means: with the sum of the positives over all rows twice the sum over the pairs, the mean of the
    log-sum-exps minus the mean of the pairs is minus the mean of the log-probabilities. -/
theorem mean_identity (SL SP SD : ℝ) (h : SD = 2 * SP) :
    SL * (1 / 8192) - SP * 2 * (1 / 4096) = -((SD * 2 - SL) * (1 / 8192)) := by
  rw [h]; ring

/-- On real rows the two losses are one number. -/
theorem loss_eq (x : Fin 8192 → Fin 128 → ℝ) :
    kLoss (fun i d => ((x i d : ℝ) : EReal)) = rLoss (fun i d => ((x i d : ℝ) : EReal)) := by
  unfold kLoss rLoss
  have hk : (∑ i : Fin 8192, kLse (fun i d => ((x i d : ℝ) : EReal)) i) = ((∑ i : Fin 8192, lseR x i : ℝ) : EReal) := by
    rw [← coe_sum]; exact Finset.sum_congr rfl (fun i _ => kLse_coe x i)
  have hp : (∑ i : Fin 4096, kPos (fun i d => ((x i d : ℝ) : EReal)) i)
      = ((∑ i : Fin 4096, dotR x (lo i) (hi i) * 2 : ℝ) : EReal) := by
    rw [← coe_sum]; exact Finset.sum_congr rfl (fun i _ => kPos_coe x i)
  have hr : (∑ i : Fin 8192, rLogp (fun i d => ((x i d : ℝ) : EReal)) i (label i))
      = ((∑ i : Fin 8192, (dotR x i (label i) * 2 - lseR x i) : ℝ) : EReal) := by
    rw [← coe_sum]; exact Finset.sum_congr rfl (fun i _ => rLogp_coe x i)
  have h8 : (8192 : ℝ) ≠ 0 := by norm_num
  have h4 : (4096 : ℝ) ≠ 0 := by norm_num
  rw [hk, hp, hr, show (8192 : EReal) = ((8192 : ℝ) : EReal) from rfl, show (4096 : EReal) = ((4096 : ℝ) : EReal) from rfl,
    Ideal.div_coe h8, Ideal.div_coe h4, Ideal.div_coe h8,
    ← EReal.coe_mul, ← EReal.coe_mul, ← EReal.coe_mul, ← EReal.coe_sub, ← EReal.coe_neg]
  rw [Finset.sum_sub_distrib, ← Finset.sum_mul, ← Finset.sum_mul, mean_identity _ _ _ (sum_label x)]

/-- The two losses of two arrays all of whose entries are real. -/
theorem out_eq (a b : (⟨2, ![4096, 128]⟩ : Idealize.ShloMosaic.Shape).Idx → EReal)
    (ha : ∀ j, ∃ y : ℝ, a j = (y : EReal)) (hb : ∀ j, ∃ y : ℝ, b j = (y : EReal)) : kOut a b = rOut a b := by
  choose ya hya using ha
  choose yb hyb using hb
  have hA : rowsOf a = fun i d => ((ya (ValueIdx.ix2 i d) : ℝ) : EReal) := by
    funext i d; exact hya _
  have hB : rowsOf b = fun i d => ((yb (ValueIdx.ix2 i d) : ℝ) : EReal) := by
    funext i d; exact hyb _
  obtain ⟨x, hx⟩ := stack_real (fun i d => ya (ValueIdx.ix2 i d)) (fun i d => yb (ValueIdx.ix2 i d))
  unfold kOut rOut
  rw [hA, hB, hx]
  exact loss_eq x

end Cert.Contrast

end
-- ==== Proof.KFinite.lean ====
/-
  The inputs are finite under the precondition.

  The precondition says, on every device, that the printed predicate of the two argument arrays is all ones: the
  conjunction of two reductions by `and`, over every axis, of the element comparisons `|x| < +∞`. A conjunction of
  bits that is one has both bits one; a reduction by `and` over every axis that is one met a one at every index;
  and an extended real whose absolute value `max x (-x)` lies below `+∞` is neither `⊤` nor `⊥`, so it is a real.
-/
import proofs.«101070_j27547920236997_2_alg».proof.Defs
import proofs.«101070_j27547920236997_2_alg».proof.Proof.Gen.Pre_finite_inputs
import Idealize.ShloMosaic.Lib.ReduceAll
import Idealize.ShloMosaic.Lib.ValueIdx

set_option maxRecDepth 16384

noncomputable section

namespace Cert.KernelIdeal.Hand

open Idealize.ShloMosaic Idealize.ShloMosaic.TcCoe
open Idealize.SL Idealize.SL.Sem

/-- The result of a reduction over every axis has one index. -/
instance kf_subsingleton : Subsingleton Cert.Pre_finite_inputs.S_.Idx := ⟨fun a b => funext fun d => d.elim0⟩

/-- The pattern the predicate compares against is `+∞`. -/
theorem kf_inf : Ideal.ofBits .f32 0x7F800000#32 = (⊤ : EReal) := by
  simp [Ideal.ofBits, Ideal.ieee]

/-- An extended real whose absolute value `max x (-x)` is below `+∞` is a real: `⊤` and `⊥` both have absolute
    value `⊤`. -/
theorem kf_real_of_abs_lt (x : EReal) (h : Ideal.cmp .olt (max x (-x)) (Ideal.ofBits .f32 0x7F800000#32) = 1#1) :
    ∃ y : ℝ, x = (y : EReal) := by
  rw [kf_inf] at h
  have hlt : max x (-x) < ⊤ := by
    by_contra hn
    simp [Ideal.cmp, hn] at h
  induction x using EReal.rec with
  | bot => simp at hlt
  | coe y => exact ⟨y, rfl⟩
  | top => simp at hlt

/-- Under the precondition every entry of both inputs is a real number. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ j, ∃ y : ℝ, m ((c.tc : Thread Cert.KernelIdeal.nD Cert.KernelIdeal.τ).loc Cert.KernelIdeal.main_arg0) j = (y : EReal))
    ∧ (∀ j, ∃ y : ℝ, m ((c.tc : Thread Cert.KernelIdeal.nD Cert.KernelIdeal.τ).loc Cert.KernelIdeal.main_arg1) j = (y : EReal)) := by
  have h0 := congrFun (h c) ValueIdx.ix0
  dsimp only [Cert.Pre_finite_inputs.fn] at h0
  obtain ⟨ha, hb⟩ := IntOp.andi_eq_one.1 h0
  exact ⟨fun j => kf_real_of_abs_lt _ (Host.reduce_andi_all _ _ _ _ _ ha j),
    fun j => kf_real_of_abs_lt _ (Host.reduce_andi_all _ _ _ _ _ hb j)⟩

end Cert.KernelIdeal.Hand

end
-- ==== Proof.KHostRead.lean ====
/-
  The host operations of the kernel's program, read at an index on the extended reals.

  Before the region the program divides every row of each input by the larger of its Euclidean norm and a small
  constant, and joins the two results along the rows. After the region it takes the mean of the region's output column,
  and subtracts the mean over the 4096 pairs of twice the inner product of the pair's two normalised rows. Each
  operation is read here at an index as a function of its operands, over variables of the literal array types.
-/
import proofs.«101070_j27547920236997_2_alg».proof.Proof.Gen.KernelIdeal
import proofs.«101070_j27547920236997_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## Sums over a rank-1 index set -/

/-- A rank-1 index is its one coordinate. -/
def idxEquiv1 {n : Nat} : (⟨1, ![n]⟩ : Shape).Idx ≃ Fin n where
  toFun j := j 0
  invFun := ix1
  left_inv j := (eq_ix1 j).symm
  right_inv _ := rfl

/-- So a sum over a rank-1 index set is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-! ## The three constants -/

theorem word_two : Ideal.ofBits .f32 0x40000000#32 = 2 := by
  have h : Ideal.ofBits .f32 0x40000000#32 = ((8388608 * (2 ^ 22)⁻¹ : ℝ) : EReal) := by
    simp [Ideal.ofBits, Ideal.ieee, -EReal.coe_mul]
  rw [h, show (8388608 * (2 ^ 22)⁻¹ : ℝ) = 2 by norm_num]
  rfl
theorem word_8192 : Ideal.ofBits .f32 0x46000000#32 = 8192 := by
  have h : Ideal.ofBits .f32 0x46000000#32 = ((8388608 * (2 ^ 10)⁻¹ : ℝ) : EReal) := by
    simp [Ideal.ofBits, Ideal.ieee, -EReal.coe_mul]
  rw [h, show (8388608 * (2 ^ 10)⁻¹ : ℝ) = 8192 by norm_num]
  rfl
theorem word_4096 : Ideal.ofBits .f32 0x45800000#32 = 4096 := by
  have h : Ideal.ofBits .f32 0x45800000#32 = ((8388608 * (2 ^ 11)⁻¹ : ℝ) : EReal) := by
    simp [Ideal.ofBits, Ideal.ieee, -EReal.coe_mul]
  rw [h, show (8388608 * (2 ^ 11)⁻¹ : ℝ) = 4096 by norm_num]
  rfl

/-! ## The operations at an index -/

/-- The sum along a row of a `[4096, 128]` array: the initial value plus the sum of the row's entries. -/
theorem rowSum_apply (z : FVec Ideal S4096x128 .f32) (init : FVec Ideal S_ .f32) (i : Fin 4096) :
    Host.reduceAdd z init reducesTo_S4096x128_S4096_d1 h_S_ (ix1 i)
      = init (Shape.Idx.first h_S_) + ∑ k : Fin 128, z (ix2 i k) := by
  simp only [Host.reduceAdd, Ideal.hostReduceAdd_def]
  rw [Ideal.hostReduceAdd_single reducesTo_S4096x128_S4096_d1 (by decide)]
  refine congrArg (_ + ·) (Finset.sum_congr rfl fun k _ => ?_)
  exact congrArg z (funext fun a => Fin.ext (by match a with | ⟨0, _⟩ => rfl | ⟨1, _⟩ => rfl))

/-- The sum of all of a `[8192]` array: the initial value plus the sum of the entries. -/
theorem total8192_apply (y : FVec Ideal S8192 .f32) (init : FVec Ideal S_ .f32) (j : S_.Idx) :
    Host.reduceAdd y init reducesTo_S8192_S_d0 h_S_ j = init (Shape.Idx.first h_S_) + ∑ i : Fin 8192, y (ix1 i) := by
  simp only [Host.reduceAdd, Ideal.hostReduceAdd_def]
  rw [Ideal.hostReduceAdd_total reducesTo_S8192_S_d0 (fun b => b.elim0) y _ j, sum_idx1]

/-- The sum of all of a `[4096]` array. -/
theorem total4096_apply (y : FVec Ideal S4096 .f32) (init : FVec Ideal S_ .f32) (j : S_.Idx) :
    Host.reduceAdd y init reducesTo_S4096_S_d0 h_S_ j = init (Shape.Idx.first h_S_) + ∑ i : Fin 4096, y (ix1 i) := by
  simp only [Host.reduceAdd, Ideal.hostReduceAdd_def]
  rw [Ideal.hostReduceAdd_total reducesTo_S4096_S_d0 (fun b => b.elim0) y _ j, sum_idx1]

/-- A column broadcast along the rows reads the column at the same row. -/
theorem bcastCol_apply (y : FVec Ideal S4096x1 .f32) (i : Fin 4096) (d : Fin 128) :
    broadcastInDim S4096x128 ![0, 1] bcast_S4096x1_S4096x128_0_1 y (ix2 i d) = y (ix2 i (0 : Fin 1)) :=
  broadcastInDim_apply _ bcast_S4096x1_S4096x128_0_1 y (ix2 i d) (ix2 i (0 : Fin 1)) (fun a => match a with
    | ⟨0, _⟩ => by show i.val = if (4096 : Nat) = 1 then 0 else i.val; rw [if_neg (by decide)]
    | ⟨1, _⟩ => by show 0 = if (1 : Nat) = 1 then 0 else d.val; rw [if_pos rfl])

/-- A vector made a column reads the vector at the row. -/
theorem bcastRow_apply (y : FVec Ideal S4096 .f32) (i : Fin 4096) :
    broadcastInDim S4096x1 ![0] bcast_S4096_S4096x1_0 y (ix2 i (0 : Fin 1)) = y (ix1 i) :=
  broadcastInDim_apply _ bcast_S4096_S4096x1_0 y (ix2 i (0 : Fin 1)) (ix1 i) (fun a => match a with
    | ⟨0, _⟩ => by show i.val = if (4096 : Nat) = 1 then 0 else i.val; rw [if_neg (by decide)])

/-- A scalar broadcast to a column, and to a vector, reads the scalar. -/
theorem bcastScalarCol_apply (y : FVec Ideal S_ .f32) (j : S4096x1.Idx) :
    broadcastInDim S4096x1 ![] bcast_S_S4096x1 y j = y ix0 :=
  broadcastInDim_apply _ bcast_S_S4096x1 y j ix0 (fun a => a.elim0)
theorem bcastScalarVec_apply (y : FVec Ideal S_ .f32) (j : S4096.Idx) :
    broadcastInDim S4096 ![] bcast_S_S4096 y j = y ix0 :=
  broadcastInDim_apply _ bcast_S_S4096 y j ix0 (fun a => a.elim0)

/-- The `[8192, 1]` column reshaped to `[8192]` reads the column at the same row. -/
theorem reshapeCol_apply (o : FVec Ideal S8192x1 .f32) (i : Fin 8192) :
    shapeCast S8192 o shapeCasts_S8192x1_S8192 (ix1 i) = o (ix2 i (0 : Fin 1)) :=
  shapeCast_apply o shapeCasts_S8192x1_S8192 (ix1 i) (ix2 i (0 : Fin 1)) (by
    rw [Shape.rowMajor_val_two, Shape.rowMajor_val_one]
    show i.val * 1 + 0 = i.val
    omega)

/-- Two `[4096, 128]` arrays joined along the rows: a row below 4096 is the first array's, -/
theorem concat_lo (p q : S4096x128.Idx → EReal) (a : Fin 8192) (d : Fin 128) (h : a.val < 4096) :
    concatenate S8192x128 0 [⟨S4096x128, p⟩, ⟨S4096x128, q⟩] concatenates_S4096x128_S4096x128_S8192x128_d0 (ix2 a d)
      = p (ix2 (⟨a.val, h⟩ : Fin 4096) d) :=
  concatenate_pair_apply_left 0 p q concatenates_S4096x128_S4096x128_S8192x128_d0 (ix2 a d) rfl (ix2 (⟨a.val, h⟩ : Fin 4096) d)
    (fun b => match b with | ⟨0, _⟩ => rfl | ⟨1, _⟩ => rfl)

/-- and a row from 4096 on is the second array's, 4096 rows up. -/
theorem concat_hi (p q : S4096x128.Idx → EReal) (a : Fin 8192) (d : Fin 128) (h : ¬ a.val < 4096) :
    concatenate S8192x128 0 [⟨S4096x128, p⟩, ⟨S4096x128, q⟩] concatenates_S4096x128_S4096x128_S8192x128_d0 (ix2 a d)
      = q (ix2 (⟨a.val - 4096, by omega⟩ : Fin 4096) d) :=
  concatenate_pair_apply_right 0 p q concatenates_S4096x128_S4096x128_S8192x128_d0 (ix2 a d) rfl rfl
    (ix2 (⟨a.val - 4096, by omega⟩ : Fin 4096) d)
    (fun b hb => match b, hb with | ⟨0, _⟩, hb => absurd rfl hb | ⟨1, _⟩, _ => rfl)
    (by show (a.val - 4096) + 4096 = a.val; omega)

end Cert.KernelIdeal.Hand

end
-- ==== Proof.KHostTerms.lean ====
/-
  The two stretches of host operations as functions of their operands, and what they are at an index: the rows of an
  input normalised, and the loss assembled from the region's output column and the two normalised inputs.
-/
import proofs.«101070_j27547920236997_2_alg».proof.Proof.KHostRead

noncomputable section

namespace Cert.KernelIdeal.Hand

open Cert.KernelIdeal Cert.KernelIdeal.Gen
open Idealize.ShloMosaic Idealize.ShloMosaic.ValueIdx
open Cert.Contrast (normRow stack rowsOf lo hi dot kLse kPos kLoss kOut)

/-! ## The host's pointwise operations at an index -/

theorem hostDivf_apply {s : Shape} {φ : FTy} (a b : FVec Ideal s φ) (i : s.Idx) : Host.divf a b i = Ideal.div (a i) (b i) := rfl
theorem hostSqrt_apply {s : Shape} {φ : FTy} (a : FVec Ideal s φ) (i : s.Idx) : Host.sqrt a i = Ideal.sqrt (a i) := rfl

/-! ## The rows of one input, normalised -/

/-- The host operations that divide each row of an input array by the larger of its norm and the small constant. -/
def normArr (x : FVec Ideal S4096x128 .f32) : FVec Ideal S4096x128 .f32 :=
  Host.divf x
    (broadcastInDim S4096x128 ![0, 1] bcast_S4096x1_S4096x128_0_1
      (maximumf
        (Host.sqrt
          (broadcastInDim S4096x1 ![0] bcast_S4096_S4096x1_0
            (Host.reduceAdd (mulf x x) (constant (F := Ideal) S_ .f32 0x00000000#32) reducesTo_S4096x128_S4096_d1 h_S_)))
        (broadcastInDim S4096x1 ![] bcast_S_S4096x1 (constant (F := Ideal) S_ .f32 0x2B8CBCCC#32))))

/-- At row `i`, coordinate `d`, it is the normalised row of the specification. -/
theorem normArr_apply (x : FVec Ideal S4096x128 .f32) (i : Fin 4096) (d : Fin 128) :
    normArr x (ix2 i d) = normRow (fun e => x (ix2 i e)) d := by
  unfold normArr normRow
  rw [hostDivf_apply, bcastCol_apply, maximumf_apply, hostSqrt_apply, bcastRow_apply, bcastScalarCol_apply, rowSum_apply]
  simp only [constant_apply, mulf_apply, Ideal.ofBits_zero_f32, zero_add]

/-! ## The operations after the region -/

/-- The host operations after the region, as a function of the region's output column and the two normalised inputs. -/
def lossTail (o : FVec Ideal S8192x1 .f32) (p q : FVec Ideal S4096x128 .f32) : FVec Ideal S_ .f32 :=
  subf
    (Host.divf
      (Host.reduceAdd (shapeCast S8192 o shapeCasts_S8192x1_S8192) (constant (F := Ideal) S_ .f32 0x00000000#32)
        reducesTo_S8192_S_d0 h_S_)
      (constant (F := Ideal) S_ .f32 0x46000000#32))
    (Host.divf
      (Host.reduceAdd
        (mulf
          (Host.reduceAdd (mulf p q) (constant (F := Ideal) S_ .f32 0x00000000#32) reducesTo_S4096x128_S4096_d1 h_S_)
          (broadcastInDim S4096 ![] bcast_S_S4096 (constant (F := Ideal) S_ .f32 0x40000000#32)))
        (constant (F := Ideal) S_ .f32 0x00000000#32) reducesTo_S4096_S_d0 h_S_)
      (constant (F := Ideal) S_ .f32 0x45800000#32))

/-- Its one entry: the mean of the column minus the mean over the pairs of twice the rows' inner product. -/
theorem lossTail_apply (o : FVec Ideal S8192x1 .f32) (p q : FVec Ideal S4096x128 .f32) (j : S_.Idx) :
    lossTail o p q j = Ideal.div (∑ i : Fin 8192, o (ix2 i (0 : Fin 1))) 8192
      - Ideal.div (∑ i : Fin 4096, (∑ d : Fin 128, p (ix2 i d) * q (ix2 i d)) * 2) 4096 := by
  have hB : ∀ i : Fin 4096,
      mulf (Host.reduceAdd (mulf p q) (constant (F := Ideal) S_ .f32 0x00000000#32) reducesTo_S4096x128_S4096_d1 h_S_)
          (broadcastInDim S4096 ![] bcast_S_S4096 (constant (F := Ideal) S_ .f32 0x40000000#32)) (ix1 i)
        = (∑ d : Fin 128, p (ix2 i d) * q (ix2 i d)) * 2 := fun i => by
    rw [mulf_apply, rowSum_apply, bcastScalarVec_apply, constant_apply, constant_apply, Ideal.ofBits_zero_f32, zero_add,
      word_two]
    simp only [mulf_apply]
  unfold lossTail
  rw [subf_apply, hostDivf_apply, hostDivf_apply, total8192_apply, total4096_apply,
    Finset.sum_congr rfl (fun i _ => reshapeCol_apply o i), Finset.sum_congr rfl (fun i _ => hB i),
    constant_apply, constant_apply, constant_apply, Ideal.ofBits_zero_f32, zero_add, zero_add, word_8192, word_4096]

/-! ## The stacked rows at the two halves -/

/-- A row of the first half of the stack is the first input's row, normalised; -/
theorem stack_lo (A B : Fin 4096 → Fin 128 → EReal) (i : Fin 4096) (d : Fin 128) : stack A B (lo i) d = normRow (A i) d := by
  unfold stack
  rw [dif_pos (show (lo i).val < 4096 from i.isLt)]
  rfl

/-- a row of the second half is the second input's. -/
theorem stack_hi (A B : Fin 4096 → Fin 128 → EReal) (i : Fin 4096) (d : Fin 128) : stack A B (hi i) d = normRow (B i) d := by
  unfold stack
  have h : ¬ (hi i).val < 4096 := by show ¬ 4096 + i.val < 4096; omega
  rw [dif_neg h]
  have e : (⟨(hi i).val - 4096, by show 4096 + i.val - 4096 < 4096; omega⟩ : Fin 4096) = i :=
    Fin.ext (by show 4096 + i.val - 4096 = i.val; omega)
  rw [e]

end Cert.KernelIdeal.Hand

end
-- ==== Proof.KHostIn.lean ====
/-
  What the host operations before the region leave: each input with its rows normalised, and their join along the rows,
  which is the stack of normalised rows the two losses are functions of.
-/
import proofs.«101070_j27547920236997_2_alg».proof.Proof.KOut
import proofs.«101070_j27547920236997_2_alg».proof.Proof.KHostTerms

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem Idealize.ShloMosaic.StableHlo
open Cert.Contrast (normRow stack rowsOf lo hi dot kLse kPos kLoss kOut)

variable (m : (ℓ : Loc nD τ sig) → Buf (Elt Ideal) ℓ) (c : Dev nD)

/-! ## The two normalised inputs and the stacked array, as the region finds them -/

/-- The first input, rows normalised. -/
theorem V_v7 : (V0 m c (Proc.devRef .tc main_v7) : S4096x128.Idx → EReal)
    = normArr (m ((c : Thread nD τ).loc main_arg0)) := by
  show StableHlo.after hostOps0 (V₀ m c) (Proc.devRef .tc main_v7) = _
  after_results
  rfl

/-- The second input, rows normalised. -/
theorem V_v15 : (V0 m c (Proc.devRef .tc main_v15) : S4096x128.Idx → EReal)
    = normArr (m ((c : Thread nD τ).loc main_arg1)) := by
  show StableHlo.after hostOps0 (V₀ m c) (Proc.devRef .tc main_v15) = _
  after_results
  rfl

/-- The array the region reads: the two joined along the rows (the narrowing of the format changes no value). -/
theorem V_v17 : (V0 m c (Proc.devRef .tc main_v17) : S8192x128.Idx → EReal)
    = truncf .bf16 (concatenate S8192x128 0
        [⟨S4096x128, normArr (m ((c : Thread nD τ).loc main_arg0))⟩, ⟨S4096x128, normArr (m ((c : Thread nD τ).loc main_arg1))⟩]
        concatenates_S4096x128_S4096x128_S8192x128_d0) bitsLt_bf16_f32 := by
  show StableHlo.after hostOps0 (V₀ m c) (Proc.devRef .tc main_v17) = _
  after_results
  rfl

/-- The stacked array the region reads holds the normalised rows of the two inputs. -/
theorem stacked_eq (a : Fin 8192) (d : Fin 128) :
    V m c main_v17 (ix2 a d) = Cert.Contrast.stack (Cert.Contrast.rowsOf (m ((c : Thread nD τ).loc main_arg0)))
      (Cert.Contrast.rowsOf (m ((c : Thread nD τ).loc main_arg1))) a d := by
  refine (congrFun (V_v17 m c) (ix2 a d)).trans ?_
  show concatenate S8192x128 0
    [⟨S4096x128, normArr (m ((c : Thread nD τ).loc main_arg0))⟩, ⟨S4096x128, normArr (m ((c : Thread nD τ).loc main_arg1))⟩]
    concatenates_S4096x128_S4096x128_S8192x128_d0 (ix2 a d) = _
  unfold Cert.Contrast.stack
  by_cases h : a.val < 4096
  · rw [dif_pos h, concat_lo _ _ a d h, normArr_apply]
    rfl
  · rw [dif_neg h, concat_hi _ _ a d h, normArr_apply]
    rfl

end Cert.KernelIdeal.Hand

end
-- ==== Proof.KHost.lean ====
/-
  What the host operations after the region compute: from the region's output column as the row log-sum-exps, the
  kernel's loss of the two inputs.
-/
import proofs.«101070_j27547920236997_2_alg».proof.Proof.KHostIn

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem Idealize.ShloMosaic.StableHlo
open Cert.Contrast (normRow stack rowsOf lo hi dot kLse kPos kLoss kOut)

variable (m : (ℓ : Loc nD τ sig) → Buf (Elt Ideal) ℓ) (c : Dev nD)

/-- Given the region's output array as the row log-sum-exps, the result is the kernel's loss of the two inputs. -/
theorem out_value (hlse : ∀ i : Fin 8192, (dats (F := Ideal) m 0 c).arrAt 2 cfg0.N (ix2 i (0 : Fin 1))
      = Cert.Contrast.kLse (fun a d => V m c main_v17 (ix2 a d)) i) :
    StableHlo.after hostOps1 (V1 m c) (Proc.devRef .tc main_v28)
      = fun _ => Cert.Contrast.kOut (m ((c : Thread nD τ).loc main_arg0)) (m ((c : Thread nD τ).loc main_arg1)) := by
  have e : StableHlo.after hostOps1 (V1 m c) (Proc.devRef .tc main_v28)
      = lossTail (V1 m c (Proc.devRef .tc main_v18)) (V1 m c (Proc.devRef .tc main_v7)) (V1 m c (Proc.devRef .tc main_v15)) := by
    after_results
    rfl
  have h7 : V1 m c (Proc.devRef .tc main_v7) = normArr (m ((c : Thread nD τ).loc main_arg0)) :=
    (V1_of_ne m c _ (StableHlo.devRef_ne_of_ne (by decide))).trans (V_v7 m c)
  have h15 : V1 m c (Proc.devRef .tc main_v15) = normArr (m ((c : Thread nD τ).loc main_arg1)) :=
    (V1_of_ne m c _ (StableHlo.devRef_ne_of_ne (by decide))).trans (V_v15 m c)
  have hst : (fun (a : Fin 8192) (d : Fin 128) => V m c main_v17 (ix2 a d))
      = stack (rowsOf (m ((c : Thread nD τ).loc main_arg0))) (rowsOf (m ((c : Thread nD τ).loc main_arg1))) :=
    funext fun a => funext fun d => stacked_eq m c a d
  have h1 : ∀ i : Fin 8192, (dats (F := Ideal) m 0 c).arrAt 2 cfg0.N (ix2 i (0 : Fin 1))
      = kLse (stack (rowsOf (m ((c : Thread nD τ).loc main_arg0))) (rowsOf (m ((c : Thread nD τ).loc main_arg1)))) i :=
    fun i => by rw [hlse i, hst]
  have h2 : ∀ i : Fin 4096,
      (∑ d : Fin 128, normArr (m ((c : Thread nD τ).loc main_arg0)) (ix2 i d) * normArr (m ((c : Thread nD τ).loc main_arg1)) (ix2 i d)) * 2
        = kPos (stack (rowsOf (m ((c : Thread nD τ).loc main_arg0))) (rowsOf (m ((c : Thread nD τ).loc main_arg1)))) i :=
    fun i => by
      unfold Cert.Contrast.kPos Cert.Contrast.dot
      simp only [stack_lo, stack_hi, normArr_apply]
      rfl
  rw [e, V1_out, h7, h15]
  funext j
  rw [lossTail_apply]
  unfold Cert.Contrast.kOut Cert.Contrast.kLoss
  simp only [h1, h2]

end Cert.KernelIdeal.Hand

end
-- ==== Proof.KCover.lean ====
/-
  From the last column block's store to the whole output array.

  The output window's block at point `t` is rows `2048 · (t / 8) …` of the 8192 × 1 array, and the pipeline writes it
  back exactly at the points with `t % 8 = 7`. So if what the body stores there is, row by row, one function `G` of the
  array's row, the array ends holding `G`: the four written blocks tile it, row `a` lying in the block written at
  point `8 · (a / 2048) + 7`.
-/
import proofs.«101070_j27547920236997_2_alg».proof.Proof.KData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

variable (m : (ℓ : Loc nD τ sig) → Buf (Elt F) ℓ)

/-- The output window's block index over the grid: (t / 8, 0), and no block is cut. -/
theorem out_index : ∀ t : Fin cfg0.N, win0_2.index t 0 = t.val / 8 ∧ win0_2.index t 1 = 0
    ∧ win0_2.xsize (grid0.coords t) 0 = 2048 ∧ win0_2.xsize (grid0.coords t) 1 = 1 :=
  (by decide +kernel : ∀ t : Fin grid0.N, win0_2.index t 0 = t.val / 8 ∧ win0_2.index t 1 = 0
    ∧ win0_2.xsize (grid0.coords t) 0 = 2048 ∧ win0_2.xsize (grid0.coords t) 1 = 1)

/-- The output buffer's contents depend on the point only through its number. -/
theorem outAt_congr (c : Dev nD) {n n' : ℕ} (e : n = n') (h : n < cfg0.N) (h' : n' < cfg0.N) :
    outAt m c n h = outAt m c n' h' := by
  subst e; rfl

/-- If the last column block of every row block stores `G` of the row, the output array ends holding `G`. -/
theorem arrAt_of_last (c : Dev nD) (G : Fin 8192 → Elt F .f32)
    (hG : ∀ (r : Fin 4) (p : Fin 2048) (h : 8 * r.val + 7 < cfg0.N),
      outAt m c (8 * r.val + 7) h (ix2 p (0 : Fin 1)) = G ⟨2048 * r.val + p.val, by omega⟩)
    (i : Fin 8192) : (dats m 0 c).arrAt 2 cfg0.N (ix2 i (0 : Fin 1)) = G i := by
  have hN : cfg0.N = 32 := N_0
  have key : (dats m 0 c).arrAt 2 cfg0.N
      = (fun j : S8192x1.Idx => G ⟨(j 0).val, idx2_lt0 j⟩ : Buf (Elt F) ((cfg0.win 2).arr.view.loc (c : Thread nD τ))) := by
    refine (dats m 0 c).arrAt_eq_of_cover 2 _ (fun t hf => ?_) (fun j => ?_)
    · have h7 : t.val % 8 = 7 := (flush0_2 t).mp hf
      have ht : t.val < 32 := lt_of_lt_of_eq t.isLt hN
      obtain ⟨hi0, hi1, hx0, hx1⟩ := out_index t
      show (cfg0.win 2).cut (grid0.coords t) ((dats m 0 c).after 2 t) = _
      rw [after_out]
      funext y
      rw [View.read_apply]
      have hy0 : (y 0).val < 2048 := lt_of_lt_of_eq (y 0).isLt hx0
      have hy1 : (y 1).val = 0 := by have := lt_of_lt_of_eq (y 1).isLt hx1; omega
      have hr : t.val / 8 < 4 := by omega
      have e1 : outAt m c t.val t.isLt = outAt m c (8 * (⟨t.val / 8, hr⟩ : Fin 4).val + 7) (by rw [hN]; show 8 * (t.val / 8) + 7 < 32; omega) :=
        outAt_congr m c (by show t.val = 8 * (t.val / 8) + 7; omega) _ _
      have e2 : (cfg0.win 2).xinj (grid0.coords t) y = ix2 (⟨(y 0).val, hy0⟩ : Fin 2048) (0 : Fin 1) :=
        funext fun a => Fin.ext (by
          match a with
          | ⟨0, _⟩ => rfl
          | ⟨1, _⟩ => exact hy1)
      show outAt m c t.val t.isLt ((cfg0.win 2).xinj (grid0.coords t) y) = _
      rw [e1, e2, hG ⟨t.val / 8, hr⟩ ⟨(y 0).val, hy0⟩]
      refine congrArg G (Fin.ext ?_)
      show 2048 * (t.val / 8) + (y 0).val = win0_2.index t 0 * 2048 + 1 * (y 0).val
      rw [hi0]; omega
    · have hj0 : (j 0).val < 8192 := idx2_lt0 j
      have hj1 : (j 1).val < 1 := idx2_lt1 j
      have hq : (j 0).val / 2048 < 4 := by omega
      have hlt : 8 * ((j 0).val / 2048) + 7 < cfg0.N := by rw [hN]; omega
      refine ⟨⟨8 * ((j 0).val / 2048) + 7, hlt⟩, (flush0_2 _).mpr (by show (8 * ((j 0).val / 2048) + 7) % 8 = 7; omega), ?_⟩
      obtain ⟨hi0, hi1, hx0, hx1⟩ := out_index ⟨8 * ((j 0).val / 2048) + 7, hlt⟩
      show j ∈ ((View.whole main_v18).slice (win0_2.rect ⟨8 * ((j 0).val / 2048) + 7, hlt⟩)).set
      rw [View.set_slice_whole, Rect.mem_set_unit]
      intro a
      match a with
      | ⟨0, _⟩ =>
        show win0_2.index _ 0 * 2048 ≤ (j 0 : Nat) ∧ (j 0 : Nat) < win0_2.index _ 0 * 2048 + win0_2.xsize _ 0
        rw [hi0, hx0]; show (8 * ((j 0).val / 2048) + 7) / 8 * 2048 ≤ (j 0).val ∧ (j 0).val < (8 * ((j 0).val / 2048) + 7) / 8 * 2048 + 2048; omega
      | ⟨1, _⟩ =>
        show win0_2.index _ 1 * 1 ≤ (j 1 : Nat) ∧ (j 1 : Nat) < win0_2.index _ 1 * 1 + win0_2.xsize _ 1
        rw [hi1, hx1]; omega
  rw [key]

end Cert.KernelIdeal.Hand

end
-- ==== Proof.KRegionBlocks.lean ====
/-
  The two input blocks of a grid point, read at an index.

  Both input windows look at the same 8192 × 128 array. At point `t` of the 4 × 8 grid the first window holds the 2048 rows
  of row block `t / 8` and the second the 1024 rows of column block `t % 8`: an element of a block sits in the array at
  block index × block size + its own coordinate on each axis, and the two index maps are (row block, 0) and
  (column block, 0), decided once over the 32 points.
-/
import proofs.«101070_j27547920236997_2_alg».proof.Proof.KData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]
variable (m : (ℓ : Loc nD τ sig) → Buf (Elt F) ℓ)

/-- The two input windows' index maps over the grid: (row block, 0) and (column block, 0). -/
theorem idx_in : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0) :=
  (by decide +kernel : ∀ t : Fin grid0.N,
    (win0_0.index t (0 : Fin 2) = t.val / 8 ∧ win0_0.index t (1 : Fin 2) = 0)
    ∧ (win0_1.index t (0 : Fin 2) = t.val % 8 ∧ win0_1.index t (1 : Fin 2) = 0))

/-- Row `p`, coordinate `d` of the first window's block at point `t` is row `2048 · (t / 8) + p` of the array. -/
theorem iblk0_apply (c : Dev nD) (t : Fin cfg0.N) (p : Fin 2048) (d : Fin 128) (k : S8192x128.Idx)
    (hk0 : (k 0).val = 2048 * (t.val / 8) + p.val) (hk1 : (k 1).val = d.val) :
    (iblk m c 0 t : Vec F S2048x128 .bf16) (ix2 p d) = (V m c main_v17 : S8192x128.Idx → Elt F .bf16) k := by
  have hi := (idx_in t).1
  unfold iblk
  rw [View.read_apply]
  show V m c main_v17 _ = V m c main_v17 _
  congr 1
  funext a
  apply Fin.ext
  match a with
  | ⟨0, _⟩ => show win0_0.index t 0 * 2048 + 1 * p.val = (k 0).val; rw [hi.1, hk0]; omega
  | ⟨1, _⟩ => show win0_0.index t 1 * 128 + 1 * d.val = (k 1).val; rw [hi.2, hk1]; omega

/-- Row `q`, coordinate `d` of the second window's block at point `t` is row `1024 · (t % 8) + q` of the array. -/
theorem iblk1_apply (c : Dev nD) (t : Fin cfg0.N) (q : Fin 1024) (d : Fin 128) (k : S8192x128.Idx)
    (hk0 : (k 0).val = 1024 * (t.val % 8) + q.val) (hk1 : (k 1).val = d.val) :
    (iblk m c 1 t : Vec F S1024x128 .bf16) (ix2 q d) = (V m c main_v17 : S8192x128.Idx → Elt F .bf16) k := by
  have hi := (idx_in t).2
  unfold iblk
  rw [View.read_apply]
  show V m c main_v17 _ = V m c main_v17 _
  congr 1
  funext a
  apply Fin.ext
  match a with
  | ⟨0, _⟩ => show win0_1.index t 0 * 1024 + 1 * q.val = (k 0).val; rw [hi.1, hk0]; omega
  | ⟨1, _⟩ => show win0_1.index t 1 * 128 + 1 * d.val = (k 1).val; rw [hi.2, hk1]; omega

end Cert.KernelIdeal.Hand

end
-- ==== Proof.KRegionWords.lean ====
/-
  Small facts the row-sum payload is read through: the 32-bit words of a row number and a column number (no wrap below
  8192), their comparison as an `if` on the numbers, a vector cast to a column, a column spread over the lanes, and the
  index a lane sum visits.
-/
import Idealize.ShloMosaic.PureOps.Ideal
import Idealize.ShloMosaic.PureOps.Ideal.Laws
import Idealize.ShloMosaic.Lib.ValueIdx
import Idealize.ShloMosaic.Lib.ValueLayout

noncomputable section

namespace Cert.KernelIdeal.Hand

open Idealize.ShloMosaic Idealize.ShloMosaic.ValueIdx

variable {α : Type}

/-- A block number times the block's rows plus a row inside it, as 32-bit words, is the word of the sum (below 2³²). -/
theorem word_affine (b s p : ℕ) (h : b * s + p < 2 ^ 32) :
    IntOp.addi (Scalar.muli (BitVec.ofNat 32 b) (BitVec.ofNat 32 s)) (BitVec.ofNat 32 p) = BitVec.ofNat 32 (s * b + p) := by
  unfold IntOp.addi Scalar.muli IntOp.muli
  apply BitVec.eq_of_toNat_eq
  have hb : b * s < 2 ^ 32 := by omega
  simp only [BitVec.toNat_add, BitVec.toNat_mul, BitVec.toNat_ofNat, Nat.mul_mod_mod, Nat.mod_mul_mod, Nat.add_mod_mod, Nat.mod_add_mod]
  rw [Nat.mul_comm s b]

/-- Selecting on the equality of two such words is the `if` on the numbers. -/
theorem select_cmpi_eq_ofNat (a b : ℕ) (ha : a < 2 ^ 32) (hb : b < 2 ^ 32) (A B : α) :
    Scalar.select (IntOp.cmpi .eq (BitVec.ofNat 32 a) (BitVec.ofNat 32 b)) A B = if a = b then A else B := by
  show (if BitVec.ofBool (BitVec.ofNat 32 a == BitVec.ofNat 32 b) = 1#1 then A else B) = _
  by_cases h : a = b
  · subst h
    rw [if_pos rfl, beq_self_eq_true]
    exact if_pos rfl
  · have hne : BitVec.ofNat 32 a ≠ BitVec.ofNat 32 b := fun e => h (by
      have := congrArg BitVec.toNat e
      simp only [BitVec.toNat_ofNat] at this
      rw [Nat.mod_eq_of_lt ha, Nat.mod_eq_of_lt hb] at this
      exact this)
    rw [if_neg h, beq_eq_false_iff_ne.mpr hne]
    exact if_neg (by decide)

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `[a, b]` array over its lanes visits, over row `p`, the indices `(p, k)`. -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Cert.KernelIdeal.Hand

end
-- ==== Proof.KRegionPay.lean ====
/-
  The body's three payloads, read at an index, at the extended reals.

  The scratch is reset to zeros; the closing payload is 2 plus the logarithm of the scratch; and the row-sum payload adds
  to the scratch, at row `p` of the row block, the sum over the 1024 rows `q` of the column block of
  `exp (logit p q - 2)`, where the logit of a pair is `⊥` when the two are the same row of the array (row number
  `2048 · r + p` against column number `1024 · k + q`, as 32-bit words that do not wrap) and twice the inner product of the
  two rows otherwise. At the extended reals the format changes are the identity, the matrix product into the zero splat
  is the plain sum over the contracted axis, the lane reduction from the zero word is the plain sum over the lanes, and
  the constant on the diagonal is the named one, `⊥`.
-/
import proofs.«101070_j27547920236997_2_alg».proof.Proof.Gen.KernelIdeal.Skeleton
import proofs.«101070_j27547920236997_2_alg».proof.Proof.KRegionWords
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {α : Type}

/-! ## The literals -/

/-- The word `0x40000000` is the number 2. -/
theorem two_eq : (FloatOps.ofBits .f32 0x40000000#32 : Ideal .f32) = (2 : EReal) := by
  show Ideal.ofBits .f32 0x40000000#32 = _
  simp [Ideal.ofBits, Ideal.ieee, -EReal.coe_mul]
  norm_num
  norm_cast

/-- The constant the kernel puts on the diagonal is named, and the name denotes `⊥`. -/
theorem neg_big_eq : (Named.named κ "neg_big" 0xFF333332#32 : Ideal .f32) = (⊥ : EReal) := by
  show (κ "neg_big").getD (Ideal.ofBits .f32 0xFF333332#32) = ⊥
  rfl

/-! ## Row number against column number -/

/-- Where the row's number `2048 r + p` is the column's number `1024 k + q` the select takes its first operand. -/
theorem diag_select_apply (r k : ℕ) (hr : r < 4) (hk : k < 8) (A B : S2048x1024.Idx → α) (p : Fin 2048) (q : Fin 1024) :
    select (cmpi .eq
        (broadcastTo S2048x1024 (addi (broadcast S2048x1 (Scalar.muli (BitVec.ofNat 32 r) 2048#32))
          (iota .tc S2048x1 32 [0] iota_S2048x1_d0_w32)) broadcasts_S2048x1_S2048x1024)
        (broadcastTo S2048x1024 (addi (broadcast S1x1024 (Scalar.muli (BitVec.ofNat 32 k) 1024#32))
          (iota .tc S1x1024 32 [1] iota_S1x1024_d1_w32)) broadcasts_S1x1024_S2048x1024))
      A B (ix2 p q)
      = if 2048 * r + p.val = 1024 * k + q.val then A (ix2 p q) else B (ix2 p q) := by
  show Scalar.select (IntOp.cmpi .eq (broadcastTo S2048x1024 _ broadcasts_S2048x1_S2048x1024 (ix2 p q))
    (broadcastTo S2048x1024 _ broadcasts_S1x1024_S2048x1024 (ix2 p q))) _ _ = _
  rw [broadcastTo_a1_ab_apply, broadcastTo_1b_ab_apply]
  show Scalar.select (IntOp.cmpi .eq
    (IntOp.addi (Scalar.muli (BitVec.ofNat 32 r) 2048#32) (iota .tc S2048x1 32 [0] iota_S2048x1_d0_w32 (ix2 p (0 : Fin 1))))
    (IntOp.addi (Scalar.muli (BitVec.ofNat 32 k) 1024#32) (iota .tc S1x1024 32 [1] iota_S1x1024_d1_w32 (ix2 (0 : Fin 1) q)))) _ _ = _
  rw [iota_single_apply, iota_single_apply]
  show Scalar.select (IntOp.cmpi .eq
    (IntOp.addi (Scalar.muli (BitVec.ofNat 32 r) (BitVec.ofNat 32 2048)) (BitVec.ofNat 32 p.val))
    (IntOp.addi (Scalar.muli (BitVec.ofNat 32 k) (BitVec.ofNat 32 1024)) (BitVec.ofNat 32 q.val))) _ _ = _
  have hp := p.isLt
  have hq := q.isLt
  rw [word_affine r 2048 p.val (by omega), word_affine k 1024 q.val (by omega),
    select_cmpi_eq_ofNat _ _ (by omega) (by omega)]

/-! ## The product of the two blocks -/

theorem lhs_0 (j : S2048x1024.Idx) (e : dot_S2048x128_S128x1024_S2048x1024_1_0_0_1_n_n.contr.Idx) :
    (dot_S2048x128_S128x1024_S2048x1024_1_0_0_1_n_n.lhsIdx j e 0).val = (j 0).val := by
  unfold DotDims.lhsIdx
  rw [dif_neg (show ¬(0 : Fin S2048x128.rank) ∈ dot_S2048x128_S128x1024_S2048x1024_1_0_0_1_n_n.lhsBatch by decide), dif_pos (show (0 : Fin S2048x128.rank) ∈ dot_S2048x128_S128x1024_S2048x1024_1_0_0_1_n_n.lhsNonContracting by decide)]
  rfl
theorem lhs_1 (j : S2048x1024.Idx) (e : dot_S2048x128_S128x1024_S2048x1024_1_0_0_1_n_n.contr.Idx) :
    (dot_S2048x128_S128x1024_S2048x1024_1_0_0_1_n_n.lhsIdx j e 1).val = (e ⟨0, by decide⟩).val :=
  dot_S2048x128_S128x1024_S2048x1024_1_0_0_1_n_n.lhsIdx_val_of_single rfl j e
theorem rhs_0 (j : S2048x1024.Idx) (e : dot_S2048x128_S128x1024_S2048x1024_1_0_0_1_n_n.contr.Idx) :
    (dot_S2048x128_S128x1024_S2048x1024_1_0_0_1_n_n.rhsIdx j e 0).val = (e ⟨0, by decide⟩).val :=
  dot_S2048x128_S128x1024_S2048x1024_1_0_0_1_n_n.rhsIdx_val_of_single rfl j e
theorem rhs_1 (j : S2048x1024.Idx) (e : dot_S2048x128_S128x1024_S2048x1024_1_0_0_1_n_n.contr.Idx) :
    (dot_S2048x128_S128x1024_S2048x1024_1_0_0_1_n_n.rhsIdx j e 1).val = (j 1).val := by
  unfold DotDims.rhsIdx
  rw [dif_neg (show ¬(1 : Fin S128x1024.rank) ∈ dot_S2048x128_S128x1024_S2048x1024_1_0_0_1_n_n.rhsBatch by decide), dif_pos (show (1 : Fin S128x1024.rank) ∈ dot_S2048x128_S128x1024_S2048x1024_1_0_0_1_n_n.rhsNonContracting by decide)]
  rfl

/-- The matrix product into the zero splat, of a 2048 × 128 block and the transpose of a 1024 × 128 block, is at `(p, q)` the
    inner product of row `p` of the one and row `q` of the other. -/
theorem mm_apply (x0 : FVec Ideal S2048x128 .bf16) (x1 : FVec Ideal S1024x128 .bf16) (p : Fin 2048) (q : Fin 1024) :
    matmul dot_S2048x128_S128x1024_S2048x1024_1_0_0_1_n_n none x0
        (transpose S128x1024 [1, 0] x1 transposes_S1024x128_p1_0_S128x1024) (constant S2048x1024 .f32 0x00000000#32) (ix2 p q)
      = ∑ d : Fin 128, x0 (ix2 p d) * x1 (ix2 q d) := by
  generalize hy : transpose S128x1024 [1, 0] x1 transposes_S1024x128_p1_0_S128x1024 = y1
  simp only [matmul]
  rw [Ideal.matmul_constant_zero_apply, ← Equiv.sum_comp (contrEquiv1 dot_S2048x128_S128x1024_S2048x1024_1_0_0_1_n_n 128 rfl rfl).symm]
  refine Finset.sum_congr rfl fun d _ => ?_
  have hd := contrEquiv1_symm_val dot_S2048x128_S128x1024_S2048x1024_1_0_0_1_n_n 128 rfl rfl d
  have el : dot_S2048x128_S128x1024_S2048x1024_1_0_0_1_n_n.lhsIdx (ix2 p q) ((contrEquiv1 dot_S2048x128_S128x1024_S2048x1024_1_0_0_1_n_n 128 rfl rfl).symm d) = ix2 p d := funext fun a => Fin.ext (by
    match a with
    | ⟨0, _⟩ => exact lhs_0 _ _
    | ⟨1, _⟩ => exact (lhs_1 _ _).trans hd)
  have er : dot_S2048x128_S128x1024_S2048x1024_1_0_0_1_n_n.rhsIdx (ix2 p q) ((contrEquiv1 dot_S2048x128_S128x1024_S2048x1024_1_0_0_1_n_n 128 rfl rfl).symm d) = ix2 d q := funext fun a => Fin.ext (by
    match a with
    | ⟨0, _⟩ => exact (rhs_0 _ _).trans hd
    | ⟨1, _⟩ => exact rhs_1 _ _)
  rw [el, er, ← hy, transpose_ix2_apply]

/-! ## The sum over the lanes -/

/-- The sum over the 1024 lanes, from the zero word, at row `p`. -/
theorem lane_sum (src : FVec Ideal S2048x1024 .f32) (hφ : FKind.Formats .f32)
    (hacc : (0x00000000#32 : BitVec 32) = FKind.add.neutral .f32 hφ) (p : Fin 2048) :
    multiReduction .add [1] S2048 src 0x00000000#32 reduces_S2048x1024_S2048 hφ hacc (ix1 p)
      = ∑ q : Fin 1024, src (ix2 p q) :=
  (Ideal.multiReduction_add_single src 0x00000000#32 reduces_S2048x1024_S2048 hφ hacc (ix1 p)).trans
    (Finset.sum_congr rfl fun k _ => congrArg src (lift_lane reduces_S2048x1024_S2048 p k))

/-! ## The three payloads at an index -/

/-- The zero block the scratch is reset to. -/
theorem pay2_apply (p : Fin 2048) : k0_pay2 (F := Ideal) (ix2 p (0 : Fin 1)) = (0 : EReal) := by
  unfold k0_pay2
  refine (congrFun (shapeCast_self _ _) _).trans ?_
  show Ideal.ofBits .f32 0x00000000#32 = 0
  exact Ideal.ofBits_zero_f32

/-- The closing payload: 2 plus the logarithm of what the scratch holds. -/
theorem pay1_apply (v : FVec Ideal S2048x1 .f32) (p : Fin 2048) :
    k0_pay1 (F := Ideal) v (ix2 p (0 : Fin 1)) = 2 + Ideal.log (v (ix2 p 0)) := by
  unfold k0_pay1
  show (FloatOps.ofBits .f32 0x40000000#32 : Ideal .f32) + Ideal.log (v (ix2 p 0)) = _
  rw [two_eq]

/-- The row-sum payload: to what the scratch held at row `p` it adds, over the 1024 rows `q` of the column block, the
    exponential of the logit of the pair less 2 — the logit `⊥` where the two rows are one row of the array, twice
    their inner product elsewhere. -/
theorem pay3_apply (i : grid0.Coords) (x0 : FVec Ideal S2048x128 .bf16) (x1 : FVec Ideal S1024x128 .bf16)
    (s : FVec Ideal S2048x1 .f32) (p : Fin 2048) :
    k0_pay3 (F := Ideal) i x0 x1 s (ix2 p (0 : Fin 1))
      = s (ix2 p 0) + ∑ q : Fin 1024, Ideal.exp ((if 2048 * (i 0).val + p.val = 1024 * (i 1).val + q.val then ⊥
          else (∑ d : Fin 128, x0 (ix2 p d) * x1 (ix2 q d)) * 2) - 2) := by
  have h0 : (i 0).val < 4 := (i 0).isLt
  have h1 : (i 1).val < 8 := (i 1).isLt
  unfold k0_pay3
  dsimp only
  refine (congrFun (shapeCast_self _ _) _).trans ?_
  show s (ix2 p 0) + shapeCast S2048x1 _ shapeCasts_S2048_S2048x1 (ix2 p (0 : Fin 1)) = _
  refine congrArg (s (ix2 p 0) + ·) ?_
  refine (shapeCast_a_a1_apply _ _ p 0).trans ?_
  refine (lane_sum _ _ _ p).trans ?_
  refine Finset.sum_congr rfl fun q _ => ?_
  show Ideal.exp (select _ _ _ (ix2 p q) - (FloatOps.ofBits .f32 0x40000000#32 : Ideal .f32)) = _
  refine congrArg Ideal.exp ?_
  refine congrArg₂ (· - ·) ?_ two_eq
  refine (diag_select_apply (i 0).val (i 1).val h0 h1 _ _ p q).trans ?_
  refine if_congr Iff.rfl neg_big_eq ?_
  show matmul _ none _ _ _ (ix2 p q) * (FloatOps.ofBits .f32 0x40000000#32 : Ideal .f32) = _
  refine congrArg₂ (· * ·) ?_ two_eq
  rw [shapeCast_self, shapeCast_self]
  exact mm_apply x0 x1 p q

end Cert.KernelIdeal.Hand

end
-- ==== Proof.KRegionAcc.lean ====
/-
  What the scratch and the output buffer hold, row by row.

  Write `R` for the 8192 rows of the stacked array. Row `p` of row block `r` is row `i = 2048 · r + p` of the array; at
  point `8 · r + k` the body adds to the scratch's entry `p` the sum, over the 1024 rows `j` of column block `k`, of
  `exp (logit i j - 2)`, from zeros at `k = 0`. So after point `8 · r + k` the entry is that sum over the first
  `1024 · (k + 1)` rows — by induction on the point, each step appending one block of 1024 to a sum over an initial
  segment — and after `k = 7` it is the sum over all 8192, of which the closing payload takes `2 + log`.
-/
import proofs.«101070_j27547920236997_2_alg».proof.Proof.KData
import proofs.«101070_j27547920236997_2_alg».proof.Proof.Spec
import proofs.«101070_j27547920236997_2_alg».proof.Proof.KRegionBlocks
import proofs.«101070_j27547920236997_2_alg».proof.Proof.KRegionPay

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The stacked rows as the region finds them: row `a`, coordinate `d` of the 8192 × 128 array. -/
abbrev rowsR (c : Dev nD) : Cert.Contrast.Rows := fun a d => V m c main_v17 (ix2 a d)

/-- What column `j` contributes to row `i`'s sum, `exp (logit i j - 2)`; nothing past the last row. -/
def expo (R : Cert.Contrast.Rows) (i : Fin 8192) (j : ℕ) : EReal :=
  if h : j < 8192 then Ideal.exp (Cert.Contrast.kLogit R i ⟨j, h⟩ - 2) else 0

/-- Point `t` of the 4 × 8 grid is row block `t / 8`, column block `t % 8`. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- At point `t` the row-sum payload adds to the scratch, at row `p` of the row block — row `i` of the array —, the
    contributions of the 1024 columns of the point's column block. -/
theorem point_sum (c : Dev nD) (t : Fin cfg0.N) (s : FVec Ideal S2048x1 .f32) (p : Fin 2048) (i : Fin 8192)
    (hi : i.val = 2048 * (t.val / 8) + p.val) :
    k0_pay3 (F := Ideal) (grid0.coords t) (iblk m c 0 t) (iblk m c 1 t) s (ix2 p (0 : Fin 1))
      = s (ix2 p 0) + ∑ q ∈ Finset.range 1024, expo (rowsR m c) i (1024 * (t.val % 8) + q) := by
  have hc := coords_val t
  have hN : cfg0.N = 32 := N_0
  have ht := t.isLt
  refine (pay3_apply (grid0.coords t) (iblk m c 0 t) (iblk m c 1 t) s p).trans ?_
  refine congrArg (s (ix2 p 0) + ·) ?_
  rw [← Fin.sum_univ_eq_sum_range (fun q => expo (rowsR m c) i (1024 * (t.val % 8) + q)) 1024]
  refine Finset.sum_congr rfl fun q _ => ?_
  have hq := q.isLt
  have hj : 1024 * (t.val % 8) + q.val < 8192 := by omega
  unfold expo
  rw [dif_pos hj]
  refine congrArg Ideal.exp (congrArg (· - 2) ?_)
  unfold Cert.Contrast.kLogit
  refine if_congr ?_ rfl (congrArg (· * 2) ?_)
  · rw [Fin.ext_iff]
    show 2048 * ((grid0.coords t) 0).val + p.val = 1024 * ((grid0.coords t) 1).val + q.val
      ↔ i.val = 1024 * (t.val % 8) + q.val
    rw [hc.1, hc.2, hi]
  · unfold Cert.Contrast.dot
    refine Finset.sum_congr rfl fun d _ => ?_
    exact congrArg₂ (· * ·) (iblk0_apply m c t p d (ix2 i d) hi rfl)
      (iblk1_apply m c t q d (ix2 (⟨1024 * (t.val % 8) + q.val, hj⟩ : Fin 8192) d) rfl rfl)

/-- After point `n` the scratch holds, at row `p` of row block `n / 8`, the contributions of the first
    `1024 · (n % 8 + 1)` columns: by induction on the point, the first point of a row block adding to zeros. -/
theorem acc_eq (c : Dev nD) : ∀ (n : ℕ) (hn : n < cfg0.N) (p : Fin 2048) (i : Fin 8192),
    i.val = 2048 * (n / 8) + p.val →
    accAt m c n hn (ix2 p (0 : Fin 1)) = ∑ j ∈ Finset.range (1024 * (n % 8 + 1)), expo (rowsR m c) i j
  | 0, hn, p, i, hi => by
    refine (congrFun (accAt_first m c ⟨0, hn⟩ rfl) (ix2 p (0 : Fin 1))).trans ?_
    refine (point_sum m c ⟨0, hn⟩ (k0_pay2 (F := Ideal)) p i hi).trans ?_
    rw [pay2_apply, zero_add]
    refine Finset.sum_congr rfl fun q _ => congrArg _ ?_
    show 1024 * (0 % 8) + q = q
    omega
  | n + 1, hn, p, i, hi => by
    have hN : cfg0.N = 32 := N_0
    by_cases h8 : (n + 1) % 8 = 0
    · refine (congrFun (accAt_first m c ⟨n + 1, hn⟩ h8) (ix2 p (0 : Fin 1))).trans ?_
      refine (point_sum m c ⟨n + 1, hn⟩ (k0_pay2 (F := Ideal)) p i hi).trans ?_
      rw [pay2_apply, zero_add]
      show ∑ q ∈ Finset.range 1024, expo _ i (1024 * ((n + 1) % 8) + q) = ∑ j ∈ Finset.range (1024 * ((n + 1) % 8 + 1)), expo _ i j
      rw [h8]
      refine Finset.sum_congr rfl fun q _ => congrArg _ (by omega)
    · refine (congrFun (accAt_step m c ⟨n + 1, hn⟩ h8) (ix2 p (0 : Fin 1))).trans ?_
      refine (point_sum m c ⟨n + 1, hn⟩ (accAt m c n (Nat.lt_of_succ_lt hn)) p i hi).trans ?_
      rw [acc_eq c n (Nat.lt_of_succ_lt hn) p i (by omega)]
      have e : 1024 * ((n + 1) % 8 + 1) = 1024 * (n % 8 + 1) + 1024 := by omega
      rw [e, Finset.sum_range_add]
      refine congrArg _ (Finset.sum_congr rfl fun q _ => congrArg _ ?_)
      show 1024 * ((n + 1) % 8) + q = 1024 * (n % 8 + 1) + q
      omega

end Cert.KernelIdeal.Hand

end
-- ==== Proof.KRegion.lean ====
/-
  The output buffer at the last column block of a row block.

  After point `8 · r + 7` the scratch's entry `p` is the sum over all 8192 rows `j` of `exp (logit i j - 2)` for row
  `i = 2048 · r + p` of the stacked array; the body then stores `2 + log` of it: the log-sum-exp with shift 2 of row `i`.
-/
import proofs.«101070_j27547920236997_2_alg».proof.Proof.KRegionAcc

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- At the last column block of row block `r` the output buffer holds, at row `p`, the log-sum-exp with shift 2 of row
    `2048 · r + p`'s logits against all 8192 rows. -/
theorem out_at_last (c : Dev nD) (r : Fin 4) (p : Fin 2048) :
    outAt (F := Ideal) m c (8 * r.val + 7) (by have hN : cfg0.N = 32 := N_0; omega) (ix2 p (0 : Fin 1))
      = Cert.Contrast.kLse (fun a d => V m c main_v17 (ix2 a d)) ⟨2048 * r.val + p.val, by omega⟩ := by
  unfold outAt
  refine (pay1_apply _ p).trans ?_
  unfold Cert.Contrast.kLse
  refine congrArg (fun y => 2 + Ideal.log y) ?_
  rw [acc_eq m c (8 * r.val + 7) _ p ⟨2048 * r.val + p.val, by omega⟩
    (by show 2048 * r.val + p.val = 2048 * ((8 * r.val + 7) / 8) + p.val; omega)]
  have e : 1024 * ((8 * r.val + 7) % 8 + 1) = 8192 := by omega
  rw [e, Finset.sum_range]
  refine Finset.sum_congr rfl fun j _ => ?_
  unfold expo
  rw [dif_pos j.isLt]

end Cert.KernelIdeal.Hand

end
-- ==== Proof.KLse.lean ====
/-
  The region's output array: at row `i` the log-sum-exp, with shift 2, of row `i`'s logits against all 8192 rows of the
  stacked array — what the last column block of each row block stores, carried to the whole array by the cover.
-/
import proofs.«101070_j27547920236997_2_alg».proof.Proof.KCover
import proofs.«101070_j27547920236997_2_alg».proof.Proof.KRegion
import proofs.«101070_j27547920236997_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

theorem lse_out (i : Fin 8192) :
    (dats (F := Ideal) m 0 c).arrAt 2 cfg0.N (ix2 i (0 : Fin 1)) = Cert.Contrast.kLse (fun a d => V m c main_v17 (ix2 a d)) i :=
  arrAt_of_last m c (fun i => Cert.Contrast.kLse (fun a d => V m c main_v17 (ix2 a d)) i)
    (fun r p _ => out_at_last m c r p) i

end Cert.KernelIdeal.Hand

end
-- ==== Proof.RefValueLayout.lean ====
/-
  The reference's layout operations read at an index, its integer words decided per coordinate, and its constants.

  Stacking two arrays along an axis reads the first array at a coordinate below its extent and the second at a
  coordinate from the extent on, the extent less.  A gather of one element per row from a square array, with both
  axes collapsed and a two-word start index per row, reads the array at the two words of that row, each read as a
  signed integer and clamped into the array.  A sum over a rank-1 index set is the sum over its coordinate.
  The 32-bit words the program computes from its coordinates — the diagonal mask, the wrap of a negative index, the
  label of a row — are decided here for a coordinate below 8192; and the bit patterns of 1/2, 8192 and -∞ are
  evaluated once.
-/
import proofs.«101070_j27547920236997_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Stacked arrays at an index -/

section Layout
variable {α : Type}

/-- Two [4096, 128] arrays stacked along the rows: a row below 4096 is that row of the first. -/
theorem stackRows_lo (a b : S4096x128.Idx → α) (h : Shape.Concatenates [S4096x128, S4096x128] S8192x128 0)
    (i : Fin 8192) (d : Fin 128) (hi : i.val < 4096) :
    concatenate S8192x128 0 [⟨S4096x128, a⟩, ⟨S4096x128, b⟩] h (ix2 i d) = a (ix2 (⟨i.val, hi⟩ : Fin 4096) d) :=
  concatenate_pair_apply_left 0 a b h (ix2 i d) rfl (ix2 (⟨i.val, hi⟩ : Fin 4096) d) (fun c => by
    match c with
    | ⟨0, _⟩ => rfl
    | ⟨1, _⟩ => rfl)

/-- Two [4096, 128] arrays stacked along the rows: a row from 4096 on is row i - 4096 of the second. -/
theorem stackRows_hi (a b : S4096x128.Idx → α) (h : Shape.Concatenates [S4096x128, S4096x128] S8192x128 0)
    (i : Fin 8192) (d : Fin 128) (hi : ¬ i.val < 4096) :
    concatenate S8192x128 0 [⟨S4096x128, a⟩, ⟨S4096x128, b⟩] h (ix2 i d)
      = b (ix2 (⟨i.val - 4096, by omega⟩ : Fin 4096) d) :=
  concatenate_pair_apply_right 0 a b h (ix2 i d) rfl rfl (ix2 (⟨i.val - 4096, by omega⟩ : Fin 4096) d)
    (fun c hc => by
      match c with
      | ⟨0, _⟩ => exact absurd rfl hc
      | ⟨1, _⟩ => rfl)
    (by show i.val - 4096 + 4096 = i.val; omega)

/-- Two vectors of 4096 entries joined: an entry below 4096 is the first's. -/
theorem join_lo (a b : S4096.Idx → α) (h : Shape.Concatenates [S4096, S4096] S8192 0) (i : Fin 8192) (hi : i.val < 4096) :
    concatenate S8192 0 [⟨S4096, a⟩, ⟨S4096, b⟩] h (ix1 i) = a (ix1 (⟨i.val, hi⟩ : Fin 4096)) :=
  concatenate_pair_apply_left 0 a b h (ix1 i) rfl (ix1 (⟨i.val, hi⟩ : Fin 4096)) (fun c => by
    match c with
    | ⟨0, _⟩ => rfl)

/-- Two vectors of 4096 entries joined: an entry from 4096 on is entry i - 4096 of the second. -/
theorem join_hi (a b : S4096.Idx → α) (h : Shape.Concatenates [S4096, S4096] S8192 0) (i : Fin 8192) (hi : ¬ i.val < 4096) :
    concatenate S8192 0 [⟨S4096, a⟩, ⟨S4096, b⟩] h (ix1 i) = b (ix1 (⟨i.val - 4096, by omega⟩ : Fin 4096)) :=
  concatenate_pair_apply_right 0 a b h (ix1 i) rfl rfl (ix1 (⟨i.val - 4096, by omega⟩ : Fin 4096))
    (fun c hc => by
      match c with
      | ⟨0, _⟩ => exact absurd rfl hc)
    (by show i.val - 4096 + 4096 = i.val; omega)

/-- Two columns of 8192 entries set side by side: the first column of the pair is the first. -/
theorem pair_fst (a b : S8192x1.Idx → α) (h : Shape.Concatenates [S8192x1, S8192x1] S8192x2 1) (i : Fin 8192) :
    concatenate S8192x2 1 [⟨S8192x1, a⟩, ⟨S8192x1, b⟩] h (ix2 i (0 : Fin 2)) = a (ix2 i (0 : Fin 1)) :=
  concatenate_pair_apply_left 1 a b h (ix2 i (0 : Fin 2)) rfl (ix2 i (0 : Fin 1)) (fun c => by
    match c with
    | ⟨0, _⟩ => rfl
    | ⟨1, _⟩ => rfl)

/-- Two columns of 8192 entries set side by side: the second column of the pair is the second. -/
theorem pair_snd (a b : S8192x1.Idx → α) (h : Shape.Concatenates [S8192x1, S8192x1] S8192x2 1) (i : Fin 8192) :
    concatenate S8192x2 1 [⟨S8192x1, a⟩, ⟨S8192x1, b⟩] h (ix2 i (1 : Fin 2)) = b (ix2 i (0 : Fin 1)) :=
  concatenate_pair_apply_right 1 a b h (ix2 i (1 : Fin 2)) rfl rfl (ix2 i (0 : Fin 1))
    (fun c hc => by
      match c with
      | ⟨0, _⟩ => rfl
      | ⟨1, _⟩ => exact absurd rfl hc)
    rfl

/-! ## One element per row gathered from a square array -/

/-- The gather of one element per row: row i of the result is the array at the two words of row i of the index
    pairs, each read as a signed integer and clamped into [0, 8191]. -/
theorem gather_pick {w : Nat} (x : S8192x8192.Idx → α) (idx : IVec S8192x2 w) (i : Fin 8192) :
    Host.gather gather_S8192x8192_S8192x2_S8192_n_01_n_n_01_1_11 x idx (ix1 i)
      = x (ix2 (⟨min (idx (ix2 i (0 : Fin 2))).toInt.toNat 8191, by omega⟩ : Fin 8192)
            (⟨min (idx (ix2 i (1 : Fin 2))).toInt.toNat 8191, by omega⟩ : Fin 8192)) := by
  unfold Host.gather
  refine congrArg x (funext fun a => Fin.ext ?_)
  show gather_S8192x8192_S8192x2_S8192_n_01_n_n_01_1_11.start (ix1 i) idx a
      + gather_S8192x8192_S8192x2_S8192_n_01_n_n_01_1_11.batchCoord (ix1 i) a
      + gather_S8192x8192_S8192x2_S8192_n_01_n_n_01_1_11.offCoord (ix1 i) a = _
  rw [GatherDims.batchCoord_eq_zero _ _ _ List.not_mem_nil]
  have hall : ∀ a : Fin S8192x8192.rank, a ∈ gather_S8192x8192_S8192x2_S8192_n_01_n_n_01_1_11.collapsedSliceDims := by decide
  rw [GatherDims.offCoord_eq_zero _ _ _ (fun hm => ((GatherDims.mem_sKept _ _).mp hm).1 (hall a))]
  simp only [Nat.add_zero]
  match a with
  | ⟨0, _⟩ =>
    unfold GatherDims.start
    rw [dif_pos (show (⟨0, by decide⟩ : Fin S8192x8192.rank) ∈ gather_S8192x8192_S8192x2_S8192_n_01_n_n_01_1_11.startIndexMap by decide)]
    have hsi : gather_S8192x8192_S8192x2_S8192_n_01_n_n_01_1_11.siIdx (ix1 i)
        ⟨List.idxOf (⟨0, by decide⟩ : Fin S8192x8192.rank) gather_S8192x8192_S8192x2_S8192_n_01_n_n_01_1_11.startIndexMap,
          List.idxOf_lt_length_iff.2 (by decide)⟩ = ix2 i (0 : Fin 2) := by
      funext b; refine Fin.ext ?_
      match b with
      | ⟨0, _⟩ => rfl
      | ⟨1, _⟩ => rfl
    rw [hsi]
    rfl
  | ⟨1, _⟩ =>
    unfold GatherDims.start
    rw [dif_pos (show (⟨1, by decide⟩ : Fin S8192x8192.rank) ∈ gather_S8192x8192_S8192x2_S8192_n_01_n_n_01_1_11.startIndexMap by decide)]
    have hsi : gather_S8192x8192_S8192x2_S8192_n_01_n_n_01_1_11.siIdx (ix1 i)
        ⟨List.idxOf (⟨1, by decide⟩ : Fin S8192x8192.rank) gather_S8192x8192_S8192x2_S8192_n_01_n_n_01_1_11.startIndexMap,
          List.idxOf_lt_length_iff.2 (by decide)⟩ = ix2 i (1 : Fin 2) := by
      funext b; refine Fin.ext ?_
      match b with
      | ⟨0, _⟩ => rfl
      | ⟨1, _⟩ => rfl
    rw [hsi]
    rfl

end Layout

/-! ## A sum over a rank-1 index set -/

/-- A rank-1 index set is its coordinate's range, so a sum over it is the sum over the coordinate. -/
theorem sum_idx1 {M : Type*} [AddCommMonoid M] {n : Nat} (f : (⟨1, ![n]⟩ : Shape).Idx → M) :
    ∑ j, f j = ∑ i : Fin n, f (ix1 i) :=
  Fintype.sum_equiv ⟨fun j => j 0, fun i => ix1 i, fun j => (eq_ix1 j).symm, fun _ => rfl⟩ f (fun i => f (ix1 i))
    (fun j => congrArg f (eq_ix1 j))

/-! ## The program's 32-bit words, per coordinate -/

/-- A coordinate below 8192, written as a 32-bit word, reads back as itself when the word is read signed. -/
theorem word_toInt (n : Nat) (h : n < 8192) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- Such a word is not negative. -/
theorem word_not_neg (n : Nat) (h : n < 8192) : IntOp.cmpi .slt (BitVec.ofNat 32 n) 0#32 = 0#1 := by
  unfold IntOp.cmpi
  show BitVec.ofBool ((BitVec.ofNat 32 n).slt 0#32) = 0#1
  rw [BitVec.slt_eq_decide, word_toInt n h]
  have h0 : (0#32 : BitVec 32).toInt = 0 := rfl
  have : ¬ ((n : Int) < 0) := by omega
  rw [h0, decide_eq_false this]; rfl

/-- The wrap of a negative index by 8192 leaves such a word alone. -/
theorem word_wrap (n : Nat) (h : n < 8192) :
    Scalar.select (IntOp.cmpi .slt (BitVec.ofNat 32 n) 0#32) (IntOp.addi (BitVec.ofNat 32 n) 8192#32) (BitVec.ofNat 32 n)
      = BitVec.ofNat 32 n := by
  rw [word_not_neg n h]; exact select_zero _ _

/-- Read signed and clamped into [0, 8191], such a word is the coordinate. -/
theorem word_clamp (n : Nat) (h : n < 8192) : min (BitVec.ofNat 32 n).toInt.toNat 8191 = n := by
  rw [word_toInt n h, Int.toNat_natCast]; omega

/-- The diagonal mask: the word of row i (plus zero) equals the word of column j exactly when i = j. -/
theorem diag_word (i j : Fin 8192) :
    IntOp.cmpi .eq (IntOp.addi (BitVec.ofNat 32 i.val) 0#32) (BitVec.ofNat 32 j.val) = if i = j then 1#1 else 0#1 := by
  unfold IntOp.cmpi IntOp.addi
  rw [BitVec.add_zero]
  show BitVec.ofBool (BitVec.ofNat 32 i.val == BitVec.ofNat 32 j.val) = _
  by_cases h : i = j
  · subst h; simp
  · have hne : BitVec.ofNat 32 i.val ≠ BitVec.ofNat 32 j.val := fun e => h (Fin.ext (by
      have := congrArg BitVec.toNat e
      rw [BitVec.toNat_ofNat, BitVec.toNat_ofNat, Nat.mod_eq_of_lt (by omega), Nat.mod_eq_of_lt (by omega)] at this
      exact this))
    rw [if_neg h, beq_eq_false_iff_ne.mpr hne]; rfl

/-- A select on the diagonal mask is the choice on i = j. -/
theorem diag_select {α : Type} (i j : Fin 8192) (a b : α) :
    Scalar.select (IntOp.cmpi .eq (IntOp.addi (BitVec.ofNat 32 i.val) 0#32) (BitVec.ofNat 32 j.val)) a b = if i = j then a else b := by
  rw [diag_word]
  by_cases h : i = j
  · rw [if_pos h, if_pos h]; exact select_one _ _
  · rw [if_neg h, if_neg h]; exact select_zero _ _

/-- 4096 plus the word of n is the word of n + 4096. -/
theorem label_word_lo (n : Nat) : IntOp.addi 4096#32 (BitVec.ofNat 32 n) = BitVec.ofNat 32 (n + 4096) := by
  unfold IntOp.addi; rw [Nat.add_comm, BitVec.ofNat_add]

/-! ## The constants -/

/-- The pattern 0x3F000000 denotes 1/2. -/
theorem ofBits_half : Ideal.ofBits .f32 0x3F000000#32 = ((1 / 2 : ℝ) : EReal) := by
  simp [Ideal.ofBits, Ideal.ieee, -EReal.coe_mul]; norm_num
/-- The pattern 0x46000000 denotes 8192. -/
theorem ofBits_8192 : Ideal.ofBits .f32 0x46000000#32 = (8192 : EReal) := by
  have : Ideal.ofBits .f32 0x46000000#32 = ((8192 : ℝ) : EReal) := by
    simp [Ideal.ofBits, Ideal.ieee, -EReal.coe_mul]; norm_num
  rw [this]; rfl
/-- The pattern 0xFF800000 denotes -∞. -/
theorem ofBits_neg_inf : Ideal.ofBits .f32 0xFF800000#32 = ⊥ := by
  simp [Ideal.ofBits, Ideal.ieee]

end Cert.ReferenceIdeal.RefValue

end
-- ==== Proof.RefValueRows.lean ====
/-
  The stacked rows of the reference: its array of 8192 rows is the two inputs' rows, each divided by the larger of its
  Euclidean norm and the small constant, the first input's 4096 rows and then the second's.

  A row's norm is the square root of zero plus the sum of the squares of its 128 coordinates; the zero is the sum's
  starting value and drops.  The stacked array at row i is the first input's normalised row i below 4096 and the second's
  row i - 4096 from there on.
-/
import proofs.«101070_j27547920236997_2_alg».proof.Proof.Spec
import proofs.«101070_j27547920236997_2_alg».proof.Proof.RefReadP
import proofs.«101070_j27547920236997_2_alg».proof.Proof.RefValueLayout

noncomputable section

namespace Cert.ReferenceIdeal.RefValue

open Cert.ReferenceIdeal Cert.ReferenceIdeal.Gen Cert.ReferenceIdeal.ReadP Idealize.ShloMosaic Idealize.ShloMosaic.ValueIdx
open Cert.Contrast

/-! ## The index functions of the broadcasts and of the row sum, at coordinates -/

theorem idx_v6 (i : Fin 4096) (d : Fin 128) : idx_main_v6 (ix2 i d) = ix2 i (0 : Fin 1) :=
  funext fun a => Fin.ext (by match a with | ⟨0, _⟩ => rfl | ⟨1, _⟩ => rfl)
theorem idx_v2 (i : Fin 4096) : idx_main_v2 (ix2 i (0 : Fin 1)) = ix1 i :=
  funext fun a => Fin.ext (by match a with | ⟨0, _⟩ => rfl)
theorem idx_v1 (i : Fin 4096) (k : Fin 128) : idx_main_v1 (ix1 i) k = ix2 i k :=
  funext fun a => Fin.ext (by match a with | ⟨0, _⟩ => rfl | ⟨1, _⟩ => rfl)
theorem idx_v14 (i : Fin 4096) (d : Fin 128) : idx_main_v14 (ix2 i d) = ix2 i (0 : Fin 1) :=
  funext fun a => Fin.ext (by match a with | ⟨0, _⟩ => rfl | ⟨1, _⟩ => rfl)
theorem idx_v10 (i : Fin 4096) : idx_main_v10 (ix2 i (0 : Fin 1)) = ix1 i :=
  funext fun a => Fin.ext (by match a with | ⟨0, _⟩ => rfl)
theorem idx_v9 (i : Fin 4096) (k : Fin 128) : idx_main_v9 (ix1 i) k = ix2 i k :=
  funext fun a => Fin.ext (by match a with | ⟨0, _⟩ => rfl | ⟨1, _⟩ => rfl)

/-! ## A normalised row -/

/-- The first input's row i, normalised: coordinate d over the larger of the row's norm and the constant. -/
theorem v7_eq (x0 : (⟨S4096x128, .f32⟩ : BufTy).Contents (Elt Ideal)) (i : Fin 4096) (d : Fin 128) :
    val_main_v7 (F := Ideal) x0 (ix2 i d) = normRow (rowsOf x0 i) d := by
  rw [val_main_v7_apply, val_main_v6_apply, idx_v6, val_main_v5_apply, val_main_v3_apply, val_main_v2_apply, idx_v2,
    val_main_v1_apply, val_main_v4_apply, val_main_cst_0_apply, val_main_cst_apply]
  simp only [idx_v1, val_main_v0_apply, Ideal.hostDivf_def, Ideal.maximumf_def, Ideal.hostUnary_sqrt_def, Ideal.mulf_def,
    Ideal.ofBits_def, Ideal.ofBits_zero_f32, zero_add]
  rfl

/-- The second input's row i, normalised. -/
theorem v15_eq (x1 : (⟨S4096x128, .f32⟩ : BufTy).Contents (Elt Ideal)) (i : Fin 4096) (d : Fin 128) :
    val_main_v15 (F := Ideal) x1 (ix2 i d) = normRow (rowsOf x1 i) d := by
  rw [val_main_v15_apply, val_main_v14_apply, idx_v14, val_main_v13_apply, val_main_v11_apply, val_main_v10_apply, idx_v10,
    val_main_v9_apply, val_main_v12_apply, val_main_cst_2_apply, val_main_cst_1_apply]
  simp only [idx_v9, val_main_v8_apply, Ideal.hostDivf_def, Ideal.maximumf_def, Ideal.hostUnary_sqrt_def, Ideal.mulf_def,
    Ideal.ofBits_def, Ideal.ofBits_zero_f32, zero_add]
  rfl

/-! ## The stacked rows -/

/-- Row i, coordinate d of the stacked array is the specification's stacked row. -/
theorem v16_eq (x0 x1 : (⟨S4096x128, .f32⟩ : BufTy).Contents (Elt Ideal)) (i : Fin 8192) (d : Fin 128) :
    val_main_v16 (F := Ideal) x0 x1 (ix2 i d) = stack (rowsOf x0) (rowsOf x1) i d := by
  unfold val_main_v16
  by_cases h : i.val < 4096
  · have e : stack (rowsOf x0) (rowsOf x1) i d = normRow (rowsOf x0 ⟨i.val, h⟩) d := dif_pos h
    rw [e, stackRows_lo _ _ _ i d h, v7_eq]
  · have e : stack (rowsOf x0) (rowsOf x1) i d = normRow (rowsOf x1 ⟨i.val - 4096, by omega⟩) d := dif_neg h
    rw [e, stackRows_hi _ _ _ i d h, v15_eq]

end Cert.ReferenceIdeal.RefValue

end
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.RefValueLogits.lean ====
/-
  The reference's log-softmax, row by row, as the specification writes it.

  Entry (i, j) of the similarity array is the inner product of stacked rows i and j divided by 1/2, and -∞ on the
  diagonal.  The row maximum is the fold of max from -∞ over the row; taking its maximum with -∞ once more changes
  nothing.  The shifted entry is the entry minus its row's maximum; the row's log-sum-exp is the logarithm of zero plus
  the sum of the exponentials of the shifted entries, the zero being the sum's starting value; and the log-probability
  is the shifted entry minus that logarithm.
-/
import proofs.«101070_j27547920236997_2_alg».proof.Proof.RefValueRows
import proofs.«101070_j27547920236997_2_alg».proof.Proof.LibRowMax

noncomputable section

namespace Cert.ReferenceIdeal.RefValue

open Cert.ReferenceIdeal Cert.ReferenceIdeal.Gen Cert.ReferenceIdeal.ReadP Idealize.ShloMosaic Idealize.ShloMosaic.ValueIdx
open Cert.Contrast

variable (x0 x1 : (⟨S4096x128, .f32⟩ : BufTy).Contents (Elt Ideal))

/-! ## Index functions at coordinates -/

theorem lidx_v18 (i j : Fin 8192) (k : Fin 128) : lidx_main_v18 (ix2 i j) k = ix2 i k :=
  funext fun a => Fin.ext (by match a with | ⟨0, _⟩ => rfl | ⟨1, _⟩ => rfl)
theorem ridx_v18 (i j : Fin 8192) (k : Fin 128) : ridx_main_v18 (ix2 i j) k = ix2 k j :=
  funext fun a => Fin.ext (by match a with | ⟨0, _⟩ => rfl | ⟨1, _⟩ => rfl)
theorem idx_v17 (k : Fin 128) (j : Fin 8192) : idx_main_v17 (ix2 k j) = ix2 j k :=
  funext fun a => Fin.ext (by match a with | ⟨0, _⟩ => rfl | ⟨1, _⟩ => rfl)
theorem idx_c4 (i j : Fin 8192) : idx_main_call1_v4 (ix2 i j) = ix2 i (0 : Fin 1) :=
  funext fun a => Fin.ext (by match a with | ⟨0, _⟩ => rfl | ⟨1, _⟩ => rfl)
theorem idx_c3 (i : Fin 8192) : idx_main_call1_v3 (ix2 i (0 : Fin 1)) = ix1 i :=
  funext fun a => Fin.ext (by match a with | ⟨0, _⟩ => rfl)
theorem idx_c10 (i j : Fin 8192) : idx_main_call1_v10 (ix2 i j) = ix2 i (0 : Fin 1) :=
  funext fun a => Fin.ext (by match a with | ⟨0, _⟩ => rfl | ⟨1, _⟩ => rfl)
theorem idx_c8 (i : Fin 8192) : idx_main_call1_v8 (ix2 i (0 : Fin 1)) = ix1 i :=
  funext fun a => Fin.ext (by match a with | ⟨0, _⟩ => rfl)
theorem idx_c7 (i k : Fin 8192) : idx_main_call1_v7 (ix1 i) k = ix2 i k :=
  funext fun a => Fin.ext (by match a with | ⟨0, _⟩ => rfl | ⟨1, _⟩ => rfl)

/-! ## The similarity array -/

/-- Off-diagonal: the inner product of rows i and j over 1/2. -/
theorem v20_eq (i j : Fin 8192) :
    val_main_v20 (F := Ideal) x0 x1 (ix2 i j) = Ideal.div (dot (stack (rowsOf x0) (rowsOf x1)) i j) ((1 / 2 : ℝ) : EReal) := by
  rw [val_main_v20_apply, val_main_v18_apply, val_main_v19_apply, val_main_cst_3_apply]
  simp only [lidx_v18, ridx_v18, val_main_v17_apply, idx_v17, v16_eq, Ideal.hostDivf_def, Ideal.ofBits_def, ofBits_half]
  rfl

/-- With -∞ on the diagonal: the specification's logit. -/
theorem v26_eq (i j : Fin 8192) :
    val_main_v26 (F := Ideal) x0 x1 (ix2 i j) = rLogit (stack (rowsOf x0) (rowsOf x1)) i j := by
  rw [val_main_v26_apply, val_main_v25_apply, val_main_v24_apply, val_main_v21_apply, val_main_v22_apply, val_main_v23_apply,
    val_main_c_apply, val_main_call0_v1_apply, val_main_call0_v0_apply, val_main_cst_4_apply, v20_eq]
  refine (diag_select i j _ _).trans ?_
  simp only [Ideal.ofBits_def, ofBits_neg_inf]
  rfl

/-! ## The row maximum, the shift and the log-probability -/

/-- The row maximum is the specification's fold. -/
theorem rowmax_eq (i : Fin 8192) :
    val_main_call1_v2 (F := Ideal) x0 x1 (ix1 i) = rMax (stack (rowsOf x0) (rowsOf x1)) i := by
  rw [val_main_call1_v2_apply, val_main_call1_v1_apply, val_main_call1_cst_0_apply]
  unfold val_main_call1_v0
  rw [Cert.LibRowMax.hostReduce_maximumf_rows (val_main_v26 (F := Ideal) x0 x1) (val_main_call1_cst (F := Ideal))
    reducesTo_S8192x8192_S8192_d1 (by decide) h_S_ i, val_main_call1_cst_apply]
  simp only [v26_eq, Ideal.maximumf_def, Ideal.ofBits_def, ofBits_neg_inf, max_bot_left]
  rfl

/-- The shifted entry. -/
theorem shift_eq (i j : Fin 8192) :
    val_main_call1_v5 (F := Ideal) x0 x1 (ix2 i j) = rShift (stack (rowsOf x0) (rowsOf x1)) i j := by
  rw [val_main_call1_v5_apply, val_main_call1_v4_apply, idx_c4, val_main_call1_v3_apply, idx_c3, rowmax_eq, v26_eq]
  rfl

/-- The log-probability. -/
theorem logp_eq (i j : Fin 8192) :
    val_main_v32 (F := Ideal) x0 x1 (ix2 i j) = rLogp (stack (rowsOf x0) (rowsOf x1)) i j := by
  rw [val_main_v32_apply, val_main_call1_v10_apply, idx_c10, val_main_call1_v9_apply, val_main_call1_v8_apply, idx_c8,
    val_main_call1_v7_apply, val_main_call1_cst_1_apply, shift_eq]
  simp only [idx_c7, val_main_call1_v6_apply, shift_eq, Ideal.subf_def, Ideal.hostUnary_log_def, Ideal.hostUnary_exp_def,
    Ideal.ofBits_def, Ideal.ofBits_zero_f32, zero_add]
  rfl

end Cert.ReferenceIdeal.RefValue

end
-- ==== Proof.RefValueLabels.lean ====
/-
  The index pairs of the reference's gather: row i reads the array at (i, label i).

  The first word of row i is i itself — the wrap of a negative index by 8192 is never taken — and the second is the
  label of row i: 4096 + i in the first half, i - 4096 in the second, again never wrapped.  A gather whose two words at
  row i are the words of coordinates a and b below 8192 reads the array at (a, b).
-/
import proofs.«101070_j27547920236997_2_alg».proof.Proof.Spec
import proofs.«101070_j27547920236997_2_alg».proof.Proof.RefReadP
import proofs.«101070_j27547920236997_2_alg».proof.Proof.RefValueLayout

noncomputable section

namespace Cert.ReferenceIdeal.RefValue

open Cert.ReferenceIdeal Cert.ReferenceIdeal.Gen Cert.ReferenceIdeal.ReadP Idealize.ShloMosaic Idealize.ShloMosaic.ValueIdx
open Cert.Contrast

variable {F : FTy → Type} [FloatOps F]

theorem idx_v44 (i : Fin 8192) : idx_main_v44 (ix2 i (0 : Fin 1)) = ix1 i :=
  funext fun a => Fin.ext (by match a with | ⟨0, _⟩ => rfl)
theorem idx_v45 (i : Fin 8192) : idx_main_v45 (ix2 i (0 : Fin 1)) = ix1 i :=
  funext fun a => Fin.ext (by match a with | ⟨0, _⟩ => rfl)

/-- The first word of row i's index pair is the word of i. -/
theorem pair_word0 (i : Fin 8192) : val_main_v46 (F := F) (ix2 i (0 : Fin 2)) = BitVec.ofNat 32 i.val := by
  unfold val_main_v46
  refine (pair_fst _ _ _ i).trans ?_
  rw [val_main_v44_apply, idx_v44, val_main_v38_apply, val_main_v35_apply, val_main_v37_apply, val_main_v33_apply,
    val_main_v34_apply, val_main_c_6_apply, val_main_v36_apply, val_main_c_7_apply]
  exact word_wrap i.val i.isLt

/-- The label vector at row i is the word of the label of i. -/
theorem label_word (i : Fin 8192) : val_main_v31 (F := F) (ix1 i) = BitVec.ofNat 32 (label i).val := by
  unfold val_main_v31
  by_cases h : i.val < 4096
  · refine (join_lo _ _ _ i h).trans ?_
    rw [val_main_v29_apply, val_main_v28_apply, val_main_c_5_apply, val_main_v27_apply]
    have e : (label i).val = i.val + 4096 := by unfold label; rw [dif_pos h]
    rw [e]; exact label_word_lo i.val
  · refine (join_hi _ _ _ i h).trans ?_
    rw [val_main_v30_apply]
    have e : (label i).val = i.val - 4096 := by unfold label; rw [dif_neg h]
    rw [e]

/-- The second word of row i's index pair is the word of the label of i. -/
theorem pair_word1 (i : Fin 8192) : val_main_v46 (F := F) (ix2 i (1 : Fin 2)) = BitVec.ofNat 32 (label i).val := by
  unfold val_main_v46
  refine (pair_snd _ _ _ i).trans ?_
  rw [val_main_v45_apply, idx_v45, val_main_v43_apply, val_main_v40_apply, val_main_v42_apply, label_word,
    val_main_v39_apply, val_main_c_8_apply, val_main_v41_apply, val_main_c_9_apply]
  exact word_wrap (label i).val (label i).isLt

/-- A gather whose two words at row i are the words of a and b reads the array at (a, b). -/
theorem gather_pick_words {α : Type} (x : S8192x8192.Idx → α) (idx : IVec S8192x2 32) (i a b : Fin 8192)
    (h0 : idx (ix2 i (0 : Fin 2)) = BitVec.ofNat 32 a.val) (h1 : idx (ix2 i (1 : Fin 2)) = BitVec.ofNat 32 b.val) :
    Host.gather gather_S8192x8192_S8192x2_S8192_n_01_n_n_01_1_11 x idx (ix1 i) = x (ix2 a b) := by
  refine (gather_pick x idx i).trans ?_
  refine congrArg x (funext fun c => Fin.ext ?_)
  match c with
  | ⟨0, _⟩ =>
    show min (idx (ix2 i (0 : Fin 2))).toInt.toNat 8191 = a.val
    rw [h0]; exact word_clamp a.val a.isLt
  | ⟨1, _⟩ =>
    show min (idx (ix2 i (1 : Fin 2))).toInt.toNat 8191 = b.val
    rw [h1]; exact word_clamp b.val b.isLt

end Cert.ReferenceIdeal.RefValue

end
-- ==== Proof.RefValue.lean ====
/-
  The reference program's value: its run ends with the result at the reference's loss of the two input arrays.

  The program's last stages take, for each of the 8192 rows, the log-probability at the row's label (a gather whose
  index pair at row i is (i, label i)), add the 8192 of them to zero, divide by 8192 and negate: minus the mean of the
  log-probabilities at the labels, which is the specification's loss of the stacked, normalised rows.
-/
import proofs.«101070_j27547920236997_2_alg».proof.Proof.Spec
import proofs.«101070_j27547920236997_2_alg».proof.Proof.RefRunP
import proofs.«101070_j27547920236997_2_alg».proof.Proof.RefReadP
import proofs.«101070_j27547920236997_2_alg».proof.Proof.RefValueLogits
import proofs.«101070_j27547920236997_2_alg».proof.Proof.RefValueLabels

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo
open Cert.Contrast

/-- The gathered vector: row i is the log-probability of row i at its label. -/
theorem v47_eq (x0 x1 : (⟨S4096x128, .f32⟩ : BufTy).Contents (Elt Ideal)) (i : Fin 8192) :
    val_main_v47 (F := Ideal) x0 x1 (ix1 i) = rLogp (stack (rowsOf x0) (rowsOf x1)) i (label i) := by
  unfold val_main_v47
  refine (gather_pick_words _ _ i i (label i) (pair_word0 i) (pair_word1 i)).trans ?_
  exact logp_eq x0 x1 i (label i)

/-- The last stage is the reference's loss of the two arrays. -/
theorem stage_eq (x0 x1 : (⟨S4096x128, .f32⟩ : BufTy).Contents (Elt Ideal)) :
    val_main_v50 (F := Ideal) x0 x1 = fun _ => rOut x0 x1 := by
  funext j
  rw [val_main_v50_apply, val_main_v49_apply, val_main_v48_apply, val_main_cst_11_apply, val_main_cst_10_apply,
    sum_idx1 (val_main_v47 (F := Ideal) x0 x1)]
  simp only [v47_eq, Ideal.hostNegf_def, Ideal.negf_def, Ideal.hostDivf_def, Ideal.ofBits_def, Ideal.ofBits_zero_f32,
    zero_add, ofBits_8192]
  rfl

/-- The run's result term is the last stage of the two argument arrays. -/
theorem res_is_stage {F : FTy → Type} [FloatOps F] (m : (ℓ : Loc nD τ sig) → Buf (Elt F) ℓ) (c : Dev nD) :
    Cert.ReferenceIdeal.ValueP.res_main_v50 (F := F) m c
      = val_main_v50 (F := F) (m ((c.tc : Thread nD τ).loc main_arg0)) (m ((c.tc : Thread nD τ).loc main_arg1)) := by
  unfold Cert.ReferenceIdeal.ValueP.res_main_v50; rfl

/-- The run's result term is the reference's loss of the two argument arrays. -/
theorem res_eq (m : (ℓ : Loc nD τ sig) → Buf (Elt Ideal) ℓ) (c : Dev nD) :
    Cert.ReferenceIdeal.ValueP.res_out0 (F := Ideal) m c
      = fun _ => Cert.Contrast.rOut (m ((c.tc : Thread nD τ).loc main_arg0)) (m ((c.tc : Thread nD τ).loc main_arg1)) :=
  (res_is_stage m c).trans (stage_eq _ _)

/-- Every weakly fair execution of the reference ends with its result at that loss and its arguments unchanged. -/
theorem run_value (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v50) = (fun _ => Cert.Contrast.rOut (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (Cert.ReferenceIdeal.defs (F := Ideal)) _ _).mono (fun _ h c => ⟨(h c).1.trans (res_eq m c), (h c).2⟩)
    (Cert.ReferenceIdeal.ValueP.run (F := Ideal) m ρ)

end Cert.ReferenceIdeal.RefValue

end
-- ==== Proof.lean ====
/-
  A contrastive loss over 8192 unit rows: a tiled log-sum-exp kernel against the dense log-softmax reference.

  Both programs divide every row of the two 4096 × 128 inputs by the larger of its Euclidean norm and one small
  positive constant and stack the results into 8192 rows. The reference forms all 8192 × 8192 inner products, divides
  by 1/2, puts -∞ on the diagonal, takes the log-softmax of every row (shifted by the row maximum) and averages minus
  the entry at each row's partner (row i + 4096, or i - 4096). The kernel never forms the matrix: on a 4 × 8 grid it
  multiplies a block of 2048 rows against a block of 1024, doubles, puts a named constant on the diagonal, subtracts
  the FIXED shift 2, exponentiates and adds the row sums into a scratch column carried across the eight column blocks;
  after the last it stores 2 + log of the scratch; the host then takes the mean of these 8192 numbers minus the mean
  of the 4096 doubled partner products.

  At the extended reals the named constant is -∞, so its term vanishes from every row sum exactly as the reference's
  does. With finite inputs every row is finite, every row sum is a positive real, and a log-sum-exp does not depend
  on the real number it is shifted by: the kernel's 2 and the reference's row maximum both cancel. Each partner
  product occurs twice among the 8192 rows, which is once among 4096. So the two losses are one real number.

  The frames: no host operation and no window of the region writes an argument. The two input windows of the
  region read ONE array; they hold the two halves of its share. The one rewrite of the idealization names the mask
  fill, and the name denotes -∞.
-/
import proofs.«101070_j27547920236997_2_alg».proof.Defs
import proofs.«101070_j27547920236997_2_alg».proof.Proof.Gen.Kernel
import proofs.«101070_j27547920236997_2_alg».proof.Proof.Gen.KernelIdeal
import proofs.«101070_j27547920236997_2_alg».proof.Proof.Gen.ReferenceIdeal
import proofs.«101070_j27547920236997_2_alg».proof.Proof.Gen.Pre_finite_inputs
import proofs.«101070_j27547920236997_2_alg».proof.Proof.Frames
import proofs.«101070_j27547920236997_2_alg».proof.Proof.LossAlgebra
import proofs.«101070_j27547920236997_2_alg».proof.Proof.KFinite
import proofs.«101070_j27547920236997_2_alg».proof.Proof.KHost
import proofs.«101070_j27547920236997_2_alg».proof.Proof.KLse
import proofs.«101070_j27547920236997_2_alg».proof.Proof.RefValue
import Idealize.ShloMosaic.Adequacy
import Idealize.ShloMosaic.Init

noncomputable section

namespace Cert.Proof

open Idealize.ShloMosaic Idealize.ShloMosaic.TcCoe Idealize.SL.Sem

/-- The reference runs and leaves its arguments unchanged: its run with the result forgotten. -/
theorem frame_ri : Cert.frame_ReferenceIdeal := fun m ρ _ =>
  (θ_run (Cert.ReferenceIdeal.defs (F := Ideal)) _ _).mono (fun _ h c => (h c).2) (Cert.ReferenceIdeal.RefValue.run_value m ρ)

/-- The one rewrite of the idealization: the mask fill is named, and the name denotes the bottom element. -/
theorem preserves : Cert.preserves_Kernel_KernelIdeal :=
  IdealRules.named_const.statement Cert.KernelIdeal.κ "neg_big" .f32 0xFF333332#32 ⊥ rfl

/-- Both idealized programs end with the same loss: the kernel's run ends at the kernel's loss of its inputs (the
    region's output array is the row log-sum-exps with shift 2, and the later operations reduce it), the reference's
    at the reference's loss of the same inputs, and on finite inputs the two losses are equal. -/
theorem algebraic : Cert.algebraic_KernelIdeal_ReferenceIdeal := by
  intro m ρ m' ρ' hpre hagree
  refine ⟨fun c => fun _ => Cert.Contrast.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun r h c => ⟨?_, ?_, ?_⟩)
      (Cert.KernelIdeal.Hand.run_main m ρ (Cert.KernelIdeal.Hand.body_obligation m))
    · exact ((h c).1).trans (Cert.KernelIdeal.Hand.out_value m c (Cert.KernelIdeal.Hand.lse_out m c))
    · exact ((h c).2.1).trans (Cert.KernelIdeal.Hand.Vend_arg0 m c)
    · exact ((h c).2.2).trans (Cert.KernelIdeal.Hand.Vend_arg1 m c)
  · refine (θ_run (Cert.ReferenceIdeal.defs (F := Ideal)) _ _).mono (fun r h c => ⟨?_, (h c).2.1, (h c).2.2⟩)
      (Cert.ReferenceIdeal.RefValue.run_value m' ρ')
    refine ((h c).1).trans ?_
    rw [(hagree c).1, (hagree c).2]
    have hfin := Cert.KernelIdeal.Hand.finite_of_pre m hpre c
    exact funext fun _ => (Cert.Contrast.out_eq _ _ hfin.1 hfin.2).symm

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, frame_ri, preserves, algebraic⟩

end Cert.Proof

end
